-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x512 : Shape := ⟨4, ![16, 3, 512, 512]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel

variable [Facts]

def fn {F : FTy → Type} [FloatOps F] (main_arg0 : FVec F S16x3x512x512 .f32) (main_arg1 : FVec F S16x3x512x512 .f32) (main_arg2 : FVec F S16x3x512x512 .f32) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  let main_v4 : FVec F S16x3x512x512 .f32 := Host.absf main_arg1
  let main_cst_0 : FVec F S_ .f32 := constant S_ .f32 0x7F800000#32
  let main_v5 : FVec F S16x3x512x512 .f32 := broadcastInDim S16x3x512x512 ![] bcast_S_S16x3x512x512 main_cst_0
  let main_v6 : IVec S16x3x512x512 1 := cmpf .olt main_v4 main_v5
  let main_c_1 : IVec S_ 1 := constantI S_ 1 1#1
  let main_v7 : IVec S_ 1 := (fun x v => Host.reduce IntOp.andi x v reducesTo_S16x3x512x512_S_d0_1_2_3 h_S_) main_v6 main_c_1
  let main_v8 : IVec S_ 1 := andi main_v3 main_v7
  let main_v9 : FVec F S16x3x512x512 .f32 := Host.absf main_arg2
  let main_cst_2 : FVec F S_ .f32 := constant S_ .f32 0x7F800000#32
  let main_v10 : FVec F S16x3x512x512 .f32 := broadcastInDim S16x3x512x512 ![] bcast_S_S16x3x512x512 main_cst_2
  let main_v11 : IVec S16x3x512x512 1 := cmpf .olt main_v9 main_v10
  let main_c_3 : IVec S_ 1 := constantI S_ 1 1#1
  let main_v12 : IVec S_ 1 := (fun x v => Host.reduce IntOp.andi x v reducesTo_S16x3x512x512_S_d0_1_2_3 h_S_) main_v11 main_c_3
  let main_v13 : IVec S_ 1 := andi main_v8 main_v12
  main_v13
-- ==== Kernel.lean ====
abbrev S16x3x512x512 : Shape := ⟨4, ![16, 3, 512, 512]⟩
abbrev S2x3x16 : Shape := ⟨3, ![2, 3, 16]⟩
abbrev S1x3x512x512 : Shape := ⟨4, ![1, 3, 512, 512]⟩
abbrev S1x3x16 : Shape := ⟨3, ![1, 3, 16]⟩
abbrev S3x512x512 : Shape := ⟨3, ![3, 512, 512]⟩
abbrev S1x512x512 : Shape := ⟨3, ![1, 512, 512]⟩
abbrev S512x512 : Shape := ⟨2, ![512, 512]⟩
abbrev S512 : Shape := ⟨1, ![512]⟩
abbrev S1x512 : Shape := ⟨2, ![1, 512]⟩
abbrev S1 : Shape := ⟨1, ![1]⟩
abbrev S1x1 : Shape := ⟨2, ![1, 1]⟩
abbrev S1x16 : Shape := ⟨2, ![1, 16]⟩
abbrev S3x16 : Shape := ⟨2, ![3, 16]⟩
abbrev S_ : Shape := ⟨0, ![]⟩
abbrev S16 : Shape := ⟨1, ![16]⟩

abbrev nBuf : Space → Nat
  | .hbm => 30
  | .vmem => 8
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S16x3x512x512, .f32⟩
  | .hbm, ⟨3, _⟩ => ⟨S2x3x16, .f32⟩
  | .hbm, ⟨4, _⟩ => ⟨S_, .f32⟩
  | .hbm, ⟨5, _⟩ => ⟨S3x16, .f32⟩
  | .hbm, ⟨6, _⟩ => ⟨S1x16, .f32⟩
  | .hbm, ⟨7, _⟩ => ⟨S16, .f32⟩
  | .hbm, ⟨8, _⟩ => ⟨S1x16, .f32⟩
  | .hbm, ⟨9, _⟩ => ⟨S16, .f32⟩
  | .hbm, ⟨10, _⟩ => ⟨S1x16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .i1⟩
  | .hbm, ⟨18, _⟩ => ⟨S16, .f32⟩
  | .hbm, ⟨19, _⟩ => ⟨S16, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S1x3x512x512, .f32⟩
  | .local _ .vmem, ⟨1, _⟩ => ⟨S1x3x512x512, .f32⟩
  | .local _ .vmem, ⟨2, _⟩ => ⟨S1x3x512x512, .f32⟩
  | .local _ .vmem, ⟨3, _⟩ => ⟨S1x3x512x512, .f32⟩
  | .local _ .vmem, ⟨4, _⟩ => ⟨S1x3x512x512, .f32⟩
  | .local _ .vmem, ⟨5, _⟩ => ⟨S1x3x512x512, .f32⟩
  | .local _ .vmem, ⟨6, _⟩ => ⟨S1x3x16, .f32⟩
  | .local _ .vmem, ⟨7, _⟩ => ⟨S1x3x16, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x3x16_S1x3x16_0_0_0 : ∀ a, (![0, 0, 0] : Fin 3 → Nat) a + S1x3x16.size a ≤ S1x3x16.size a
  h_S1x3x16 : 0 < S1x3x16.numel
  inb_S1x3x512x512_S1x3x512x512_0_0_0_0 : ∀ a, (![0, 0, 0, 0] : Fin 4 → Nat) a + S1x3x512x512.size a ≤ S1x3x512x512.size a
  h_S1x3x512x512 : 0 < S1x3x512x512.numel
  shapeCasts_S1x3x512x512_S3x512x512 : S1x3x512x512.ShapeCasts S3x512x512
  slices_S3x512x512_o0_0_0_S1x512x512 : S3x512x512.Slices ![0, 0, 0] S1x512x512
  shapeCasts_S1x512x512_S512x512 : S1x512x512.ShapeCasts S512x512
  slices_S3x512x512_o1_0_0_S1x512x512 : S3x512x512.Slices ![1, 0, 0] S1x512x512
  slices_S3x512x512_o2_0_0_S1x512x512 : S3x512x512.Slices ![2, 0, 0] S1x512x512
  natLt_1_32 : 1 < 32
  reduces_S512x512_S512 : S512x512.Reduces [0] S512
  shapeCasts_S512_S1x512 : S512.ShapeCasts S1x512
  reduces_S1x512_S1 : S1x512.Reduces [1] S1
  shapeCasts_S1_S1x1 : S1.ShapeCasts S1x1
  concatenates_S1x1_S1x1_S1x1_S1x1_S1x1_S1x1_S1x1_S1x1_S1x1_S1x1_S1x1_S1x1_S1x1_S1x1_S1x1_S1x1_S1x16_d1 : Shape.Concatenates [S1x1, S1x1, S1x1, S1x1, S1x1, S1x1, S1x1, S1x1, S1x1, S1x1, S1x1, S1x1, S1x1, S1x1, S1x1, S1x1] S1x16 1
  concatenates_S1x16_S1x16_S1x16_S3x16_d0 : Shape.Concatenates [S1x16, S1x16, S1x16] S3x16 0
  shapeCasts_S1x3x16_S3x16 : S1x3x16.ShapeCasts S3x16
  shapeCasts_S3x16_S1x3x16 : S3x16.ShapeCasts S1x3x16
  reducesTo_S2x3x16_S3x16_d0 : S2x3x16.ReducesTo [0] S3x16
  h_S_ : 0 < S_.numel
  slices_S3x16_S1x16_0_0 : S3x16.Slices ![0, 0] S1x16
  shapeCasts_S1x16_S16 : S1x16.ShapeCasts S16
  slices_S3x16_S1x16_1_0 : S3x16.Slices ![1, 0] S1x16
  slices_S3x16_S1x16_2_0 : S3x16.Slices ![2, 0] S1x16
  bcast_S_S16 : S_.BroadcastsInDim S16 (![] : Fin 0 → Fin S16.rank)
  reducesTo_S16_S_d0 : S16.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x512.size a ≤ S16x3x512x512.size a
  hwx0_0 : ∀ i : grid0.Coords, EltTy.bits .f32 = 32 ∨ (Rect.block (s := S16x3x512x512) S1x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512x512.size a ≤ S16x3x512x512.size a
  hwx0_1 : ∀ i : grid0.Coords, EltTy.bits .f32 = 32 ∨ (Rect.block (s := S16x3x512x512) S1x3x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x512x512.size a ≤ S16x3x512x512.size a
  hwx0_2 : ∀ i : grid0.Coords, EltTy.bits .f32 = 32 ∨ (Rect.block (s := S16x3x512x512) S1x3x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x16.size a ≤ S2x3x16.size a
  hwx0_3 : ∀ i : grid0.Coords, EltTy.bits .f32 = 32 ∨ (Rect.block (s := S2x3x16) S1x3x16.size (cc0_transform_3 i) (hinb0_3 i)).WholeWords (EltTy.packing .f32)

variable [Facts₀]

abbrev win0_0 : Pipeline.Window sig grid0 :=
  Pipeline.Window.ofSpec (Memref.whole main_arg0) S1x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x3x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x3x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x3x512x512 : Shape := ⟨4, ![16, 3, 512, 512]⟩
abbrev S16x1x512x512 : Shape := ⟨4, ![16, 1, 512, 512]⟩
abbrev S16x512x512 : Shape := ⟨3, ![16, 512, 512]⟩
abbrev S_ : Shape := ⟨0, ![]⟩
abbrev S4194304 : Shape := ⟨1, ![4194304]⟩
abbrev S17 : Shape := ⟨1, ![17]⟩
abbrev S4194304x1 : Shape := ⟨2, ![4194304, 1]⟩
abbrev S16 : Shape := ⟨1, ![16]⟩

abbrev nBuf : Space → Nat
  | .hbm => 112
  | .vmem => 0
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S16x3x512x512, .f32⟩
  | .hbm, ⟨3, _⟩ => ⟨S16x1x512x512, .f32⟩
  | .hbm, ⟨4, _⟩ => ⟨S16x512x512, .f32⟩
  | .hbm, ⟨5, _⟩ => ⟨S_, .f32⟩
  | .hbm, ⟨6, _⟩ => ⟨S16x512x512, .f32⟩
  | .hbm, ⟨7, _⟩ => ⟨S16x512x512, .f32⟩
  | .hbm, ⟨8, _⟩ => ⟨S16x1x512x512, .f32⟩
  | .hbm, ⟨9, _⟩ => ⟨S16x512x512, .f32⟩
  | .hbm, ⟨10, _⟩ => ⟨S_, .f32⟩
  | .hbm, ⟨11, _⟩ => ⟨S16x512x512, .f32⟩
  | .hbm, ⟨12, _⟩ => ⟨S16x512x512, .f32⟩
  | .hbm, ⟨13, _⟩ => ⟨S16x512x512, .f32⟩
  | .hbm, ⟨14, _⟩ => ⟨S16x1x512x512, .f32⟩
  | .hbm, ⟨15, _⟩ => ⟨S16x512x512, .f32⟩
  | .hbm, ⟨16, _⟩ => ⟨S_, .f32⟩
  | .hbm, ⟨17, _⟩ => ⟨S16x512x512, .f32⟩
  | .hbm, ⟨18, _⟩ => ⟨S16x512x512, .f32⟩
  | .hbm, ⟨19, _⟩ => ⟨S16x512x512, .f32⟩
  | .hbm, ⟨20, _⟩ => ⟨S4194304, .f32⟩
  | .hbm, ⟨21, _⟩ => ⟨S16x1x512x512, .f32⟩
  | .hbm, ⟨22, _⟩ => ⟨S16x512x512, .f32⟩
  | .hbm, ⟨23, _⟩ => ⟨S_, .f32⟩
  | .hbm, ⟨24, _⟩ => ⟨S16x512x512, .f32⟩
  | .hbm, ⟨25, _⟩ => ⟨S16x512x512, .f32⟩
  | .hbm, ⟨26, _⟩ => ⟨S16x1x512x512, .f32⟩
  | .hbm, ⟨27, _⟩ => ⟨S16x512x512, .f32⟩
  | .hbm, ⟨28, _⟩ => ⟨S_, .f32⟩
  | .hbm, ⟨29, _⟩ => ⟨S16x512x512, .f32⟩
  | .hbm, ⟨30, _⟩ => ⟨S16x512x512, .f32⟩
  | .hbm, ⟨31, _⟩ => ⟨S16x512x512, .f32⟩
  | .hbm, ⟨32, _⟩ => ⟨S16x1x512x512, .f32⟩
  | .hbm, ⟨33, _⟩ => ⟨S16x512x512, .f32⟩
  | .hbm, ⟨34, _⟩ => ⟨S_, .f32⟩
  | .hbm, ⟨35, _⟩ => ⟨S16x512x512, .f32⟩
  | .hbm, ⟨36, _⟩ => ⟨S16x512x512, .f32⟩
  | .hbm, ⟨37, _⟩ => ⟨S16x512x512, .f32⟩
  | .hbm, ⟨38, _⟩ => ⟨S4194304, .f32⟩
  | .hbm, ⟨39, _⟩ => ⟨S16x1x512x512, .f32⟩
  | .hbm, ⟨40, _⟩ => ⟨S16x512x512, .f32⟩
  | .hbm, ⟨41, _⟩ => ⟨S_, .f32⟩
  | .hbm, ⟨42, _⟩ => ⟨S16x512x512, .f32⟩
  | .hbm, ⟨43, _⟩ => ⟨S16x512x512, .f32⟩
  | .hbm, ⟨44, _⟩ => ⟨S16x1x512x512, .f32⟩
  | .hbm, ⟨45, _⟩ => ⟨S16x512x512, .f32⟩
  | .hbm, ⟨46, _⟩ => ⟨S_, .f32⟩
  | .hbm, ⟨47, _⟩ => ⟨S16x512x512, .f32⟩
  | .hbm, ⟨48, _⟩ => ⟨S16x512x512, .f32⟩
  | .hbm, ⟨49, _⟩ => ⟨S16x512x512, .f32⟩
  | .hbm, ⟨50, _⟩ => ⟨S16x1x512x512, .f32⟩
  | .hbm, ⟨51, _⟩ => ⟨S16x512x512, .f32⟩
  | .hbm, ⟨52, _⟩ => ⟨S_, .f32⟩
  | .hbm, ⟨53, _⟩ => ⟨S16x512x512, .f32⟩
  | .hbm, ⟨54, _⟩ => ⟨S16x512x512, .f32⟩
  | .hbm, ⟨55, _⟩ => ⟨S16x512x512, .f32⟩
  | .hbm, ⟨56, _⟩ => ⟨S4194304, .f32⟩
  | .hbm, ⟨57, _⟩ => ⟨S_, .f32⟩
  | .hbm, ⟨58, _⟩ => ⟨S4194304, .f32⟩
  | .hbm, ⟨59, _⟩ => ⟨S4194304, .f32⟩
  | .hbm, ⟨60, _⟩ => ⟨S4194304, .f32⟩
  | .hbm, ⟨61, _⟩ => ⟨S4194304, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S4194304, .i32⟩
  | .hbm, ⟨66, _⟩ => ⟨S4194304, .i32⟩
  | .hbm, ⟨67, _⟩ => ⟨S_, .i32⟩
  | .hbm, ⟨68, _⟩ => ⟨S4194304, .i32⟩
  | .hbm, ⟨69, _⟩ => ⟨S4194304, .i32⟩
  | .hbm, ⟨70, _⟩ => ⟨S_, .f32⟩
  | .hbm, ⟨71, _⟩ => ⟨S4194304, .f32⟩
  | .hbm, ⟨72, _⟩ => ⟨S4194304, .i1⟩
  | .hbm, ⟨73, _⟩ => ⟨S_, .i32⟩
  | .hbm, ⟨74, _⟩ => ⟨S_, .i32⟩
  | .hbm, ⟨75, _⟩ => ⟨S4194304, .i32⟩
  | .hbm, ⟨76, _⟩ => ⟨S4194304, .i32⟩
  | .hbm, ⟨77, _⟩ => ⟨S_, .f32⟩
  | .hbm, ⟨78, _⟩ => ⟨S4194304, .f32⟩
  | .hbm, ⟨79, _⟩ => ⟨S_, .f32⟩
  | .hbm, ⟨80, _⟩ => ⟨S17, .f32⟩
  | .hbm, ⟨81, _⟩ => ⟨S4194304x1, .i32⟩
  | .hbm, ⟨82, _⟩ => ⟨S17, .f32⟩
  | .hbm, ⟨83, _⟩ => ⟨S16, .f32⟩
  | .hbm, ⟨84, _⟩ => ⟨S_, .f32⟩
  | .hbm, ⟨85, _⟩ => ⟨S17, .f32⟩
  | .hbm, ⟨86, _⟩ => ⟨S4194304x1, .i32⟩
  | .hbm, ⟨87, _⟩ => ⟨S17, .f32⟩
  | .hbm, ⟨88, _⟩ => ⟨S16, .f32⟩
  | .hbm, ⟨89, _⟩ => ⟨S_, .f32⟩
  | .hbm, ⟨90, _⟩ => ⟨S17, .f32⟩
  | .hbm, ⟨91, _⟩ => ⟨S4194304x1, .i32⟩
  | .hbm, ⟨92, _⟩ => ⟨S17, .f32⟩
  | .hbm, ⟨93, _⟩ => ⟨S16, .f32⟩
  | .hbm, ⟨94, _⟩ => ⟨S_, .f32⟩
  | .hbm, ⟨95, _⟩ => ⟨S16, .f32⟩
  | .hbm, ⟨96, _⟩ => ⟨S16, .f32⟩
  | .hbm, ⟨97, _⟩ => ⟨S_, .f32⟩
  | .hbm, ⟨98, _⟩ => ⟨S16, .f32⟩
  | .hbm, ⟨99, _⟩ => ⟨S16, .i1⟩
  | .hbm, ⟨100, _⟩ => ⟨S16, .f32⟩
  | .hbm, ⟨101, _⟩ => ⟨S16, .f32⟩
  | .hbm, ⟨102, _⟩ => ⟨S16, .f32⟩
  | .hbm, ⟨103, _⟩ => ⟨S16, .f32⟩
  | .hbm, ⟨104, _⟩ => ⟨S_, .f32⟩
  | .hbm, ⟨105, _⟩ => ⟨S_, .f32⟩
  | .hbm, ⟨106, _⟩ => ⟨S16, .f32⟩
  | .hbm, ⟨107, _⟩ => ⟨S16, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_8 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c : Ref sig .tc := ⟨.hbm, 62, rfl⟩
abbrev main_c_9 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_call1_v0 : Ref sig .tc := ⟨.hbm, 74, rfl⟩
abbrev main_call1_v1 : Ref sig .tc := ⟨.hbm, 75, rfl⟩
abbrev main_v52 : Ref sig .tc := ⟨.hbm, 76, rfl⟩
abbrev main_cst_12 : Ref sig .tc := ⟨.hbm, 77, rfl⟩
abbrev main_v53 : Ref sig .tc := ⟨.hbm, 78, rfl⟩
abbrev main_cst_13 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_14 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_15 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_16 : Ref sig .tc := ⟨.hbm, 94, rfl⟩
abbrev main_v66 : Ref sig .tc := ⟨.hbm, 95, rfl⟩
abbrev main_v67 : Ref sig .tc := ⟨.hbm, 96, rfl⟩
abbrev main_cst_17 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_18 : Ref sig .tc := ⟨.hbm, 104, rfl⟩
abbrev main_call2_v0 : Ref sig .tc := ⟨.hbm, 105, rfl⟩
abbrev main_call2_v1 : Ref sig .tc := ⟨.hbm, 106, rfl⟩
abbrev main_v74 : Ref sig .tc := ⟨.hbm, 107, rfl⟩
abbrev main_cst_19 : Ref sig .tc := ⟨.hbm, 108, rfl⟩
abbrev main_v75 : Ref sig .tc := ⟨.hbm, 109, rfl⟩
abbrev main_cst_20 : Ref sig .tc := ⟨.hbm, 110, rfl⟩
abbrev main_v76 : Ref sig .tc := ⟨.hbm, 111, rfl⟩

abbrev nD : Nat := 1
abbrev τ : Topo := Topo.v7x

variable {F : FTy → Type} [FloatOps F]

class Facts₀ : Prop where
  slices_S16x3x512x512_S16x1x512x512_0_0_0_0 : S16x3x512x512.Slices ![0, 0, 0, 0] S16x1x512x512
  shapeCasts_S16x1x512x512_S16x512x512 : S16x1x512x512.ShapeCasts S16x512x512
  bcast_S_S16x512x512 : S_.BroadcastsInDim S16x512x512 (![] : Fin 0 → Fin S16x512x512.rank)
  slices_S16x3x512x512_S16x1x512x512_0_1_0_0 : S16x3x512x512.Slices ![0, 1, 0, 0] S16x1x512x512
  slices_S16x3x512x512_S16x1x512x512_0_2_0_0 : S16x3x512x512.Slices ![0, 2, 0, 0] S16x1x512x512
  shapeCasts_S16x512x512_S4194304 : S16x512x512.ShapeCasts S4194304
  bcast_S_S4194304 : S_.BroadcastsInDim S4194304 (![] : Fin 0 → Fin S4194304.rank)
  bcast_S_S17 : S_.BroadcastsInDim S17 (![] : Fin 0 → Fin S17.rank)
  bcast_S4194304_S4194304x1_0 : S4194304.BroadcastsInDim S4194304x1 (![0] : Fin 1 → Fin S4194304x1.rank)
  slices_S17_S16_0 : S17.Slices ![0] S16
  bcast_S_S16 : S_.BroadcastsInDim S16 (![] : Fin 0 → Fin S16.rank)
  reducesTo_S16_S_d0 : S16.ReducesTo [0] S_
  h_S_ : 0 < S_.numel
  scatter_S17_S4194304x1_S4194304_n_0_0_1_wf : ScatterDims.WF S17 S4194304x1 S4194304 [] [0] [0] 1

variable [Facts₀]

def scatter_S17_S4194304x1_S4194304_n_0_0_1 : ScatterDims S17 S4194304x1 S4194304 where
  updateWindowDims := []
  insertedWindowDims := [0]
  scatterDimsToOperandDims := [0]
  indexVectorDim := 1
  wf := scatter_S17_S4194304x1_S4194304_n_0_0_1_wf

class Facts : Prop extends Facts₀ where

variable [Facts]
-- ==== Proof.Spec.lean ====
/-
  The statistic both programs compute, as one function of the three input arrays.

  Each input is an array of 16 images of 3 channels of 512 × 512 reals.  An image's luma at a pixel is the weighted
  sum `w0·R + w1·G + w2·B` of its three channels (the weights are three fixed reals, read off their f32 words and never
  evaluated).  The third input's luma chooses a bin for each pixel: the floor of sixteen times the luma, turned into a
  32-bit word, limited to 0 … 15, and replaced by 16 where the luma is at least one.  For a bin `k` the three
  statistics are the number of pixels in the bin, and the sums over those pixels of the first and of the second
  input's luma.  Written with the indicator `[bin = k]` (one on the bin's pixels, zero elsewhere) each is a plain
  sum over all pixels of all images: `∑ [bin = k]`, `∑ [bin = k]·luma₀`, `∑ [bin = k]·luma₁`.  On the extended
  reals `0·x = 0` and `1·x = x` for every `x`, and addition is commutative and associative, so these sums may be
  grouped by image, by row or by column in any order and no finiteness is needed.

  The scalar result is a fixed function (`tail`) of the three 16-vectors of statistics: the mean over the bins
  of `|psum/max(count,1) − tsum/max(count,1)|`, a bin counting only when its count is positive.
-/
import Idealize.ShloMosaic.PureOps.Ideal
import Idealize.ShloMosaic.PureOps.Ideal.Laws
import Idealize.ShloMosaic.Lib.ValueIdx
import Idealize.ShloMosaic.Lib.IdealHost

noncomputable section

namespace Cert.Hist

open Idealize.ShloMosaic Idealize.ShloMosaic.ValueIdx
open scoped BigOperators

/-- `n` images of three channels of 512 × 512 pixels. -/
abbrev Imgs (n : Nat) : Shape := ⟨4, ![n, 3, 512, 512]⟩

/-- The luma weights and the two thresholds, each the extended real its f32 word denotes. -/
def w0 : EReal := Ideal.ofBits .f32 0x3E991687#32
def w1 : EReal := Ideal.ofBits .f32 0x3F1645A2#32
def w2 : EReal := Ideal.ofBits .f32 0x3DE978D5#32
def sixteen : EReal := Ideal.ofBits .f32 0x41800000#32
def one : EReal := Ideal.ofBits .f32 0x3F800000#32

/-- The luma of image `b` at pixel `(h, w)`: `(w0·R + w1·G) + w2·B`. -/
def luma {n : Nat} (x : (Imgs n).Idx → EReal) (b : Fin n) (h w : Fin 512) : EReal :=
  w0 * x (ix4 b 0 h w) + w1 * x (ix4 b 1 h w) + w2 * x (ix4 b 2 h w)

/-- The bin word of a luma value `v`: `⌊16·v⌋` as a signed 32-bit word (rounded toward zero and clamped to the
    word's range), limited below by 0 and above by 15, and 16 where `v ≥ 1`. -/
def binWord (v : EReal) : BitVec 32 :=
  Scalar.select (FloatOps.cmpf (F := Ideal) (φ := .f32) .oge v one) 16#32
    (IntOp.minsi 15#32 (IntOp.maxsi 0#32 (FloatOps.fptosi (F := Ideal) (φ := .f32) 32 (Ideal.liftRound Int.floor (v * sixteen)))))

/-- The indicator of `b = k` as an extended real. -/
def ind (b k : BitVec 32) : EReal := if b = k then 1 else 0

/-- A one-bit comparison widened to a word and converted to a float is the indicator. -/
theorem sitofp_cmpi_eq (b k : BitVec 32) :
    FloatOps.sitofp (F := Ideal) .f32 ((IntOp.cmpi .eq b k).setWidth 32) = ind b k := by
  unfold ind IntOp.cmpi
  by_cases h : b = k
  · subst h
    simp only [beq_self_eq_true, if_true]
    show (((((BitVec.ofBool true).setWidth 32).toInt : ℤ) : ℝ) : EReal) = 1
    rw [show ((BitVec.ofBool true).setWidth 32).toInt = 1 by decide]
    norm_num
  · rw [if_neg h, show (b == k) = false from beq_eq_false_iff_ne.mpr h]
    show (((((BitVec.ofBool false).setWidth 32).toInt : ℤ) : ℝ) : EReal) = 0
    rw [show ((BitVec.ofBool false).setWidth 32).toInt = 0 by decide]
    norm_num

/-- The summand of statistic `r` (0 the count, 1 the first input's luma, 2 the second's) for the bin word `k` at
    image `b`, pixel `(h, w)`; the bin is chosen by the third input `x2`. -/
def term {n : Nat} (x0 x1 x2 : (Imgs n).Idx → EReal) (r : Fin 3) (k : BitVec 32) (b : Fin n) (h w : Fin 512) : EReal :=
  match r with
  | 0 => ind (binWord (luma x2 b h w)) k
  | 1 => ind (binWord (luma x2 b h w)) k * luma x0 b h w
  | 2 => ind (binWord (luma x2 b h w)) k * luma x1 b h w

theorem term_zero {n : Nat} (x0 x1 x2 : (Imgs n).Idx → EReal) (k : BitVec 32) (b : Fin n) (h w : Fin 512) :
    term x0 x1 x2 0 k b h w = ind (binWord (luma x2 b h w)) k := rfl
theorem term_one {n : Nat} (x0 x1 x2 : (Imgs n).Idx → EReal) (k : BitVec 32) (b : Fin n) (h w : Fin 512) :
    term x0 x1 x2 1 k b h w = ind (binWord (luma x2 b h w)) k * luma x0 b h w := rfl
theorem term_two {n : Nat} (x0 x1 x2 : (Imgs n).Idx → EReal) (k : BitVec 32) (b : Fin n) (h w : Fin 512) :
    term x0 x1 x2 2 k b h w = ind (binWord (luma x2 b h w)) k * luma x1 b h w := rfl

/-- One image's share of statistic `r` for bin word `k`: the sum over the columns of the sums over the rows. -/
def imageSum {n : Nat} (x0 x1 x2 : (Imgs n).Idx → EReal) (r : Fin 3) (k : BitVec 32) (b : Fin n) : EReal :=
  ∑ w : Fin 512, ∑ h : Fin 512, term x0 x1 x2 r k b h w

/-- Statistic `r` of bin `k` over all the images. -/
def stat {n : Nat} (x0 x1 x2 : (Imgs n).Idx → EReal) (r : Fin 3) (k : Fin 16) : EReal :=
  ∑ b : Fin n, imageSum x0 x1 x2 r (BitVec.ofNat 32 k.val) b

/-- The three statistics as 16-vectors. -/
def statVec {n : Nat} (x0 x1 x2 : (Imgs n).Idx → EReal) (r : Fin 3) : (⟨1, ![16]⟩ : Shape).Idx → EReal :=
  fun i => stat x0 x1 x2 r (i 0)

/-- The scalar both programs end with, as a function of the count, first-sum and second-sum vectors: per bin
    `|psum / max(count, 1) − tsum / max(count, 1)|` where the count is positive and zero elsewhere, summed over the
    bins from zero, divided by sixteen.  It is built from the host program's own operations so that either program's
    last lines are this function of its three vectors by unfolding alone; it is never opened. -/
def tail (hb : (⟨0, ![]⟩ : Shape).BroadcastsInDim ⟨1, ![16]⟩ (![] : Fin 0 → Fin 1))
    (hr : (⟨1, ![16]⟩ : Shape).ReducesTo [0] ⟨0, ![]⟩) (h0 : 0 < (⟨0, ![]⟩ : Shape).numel)
    (cnt ps ts : FVec Ideal ⟨1, ![16]⟩ .f32) : FVec Ideal ⟨0, ![]⟩ .f32 :=
  let safe : FVec Ideal ⟨1, ![16]⟩ .f32 :=
    maximumf cnt (broadcastInDim ⟨1, ![16]⟩ ![] hb (constant (F := Ideal) ⟨0, ![]⟩ .f32 0x3F800000#32))
  let pos : IVec ⟨1, ![16]⟩ 1 :=
    cmpf .ogt cnt (broadcastInDim ⟨1, ![16]⟩ ![] hb (constant (F := Ideal) ⟨0, ![]⟩ .f32 0x00000000#32))
  let diff : FVec Ideal ⟨1, ![16]⟩ .f32 := Host.absf (subf (Host.divf ps safe) (Host.divf ts safe))
  let perBin : FVec Ideal ⟨1, ![16]⟩ .f32 :=
    select pos diff (broadcastInDim ⟨1, ![16]⟩ ![] hb (constant (F := Ideal) ⟨0, ![]⟩ .f32 0x00000000#32))
  Host.divf (Host.reduceAdd perBin (constant (F := Ideal) ⟨0, ![]⟩ .f32 0x00000000#32) hr h0)
    (constant (F := Ideal) ⟨0, ![]⟩ .f32 0x41800000#32)

end Cert.Hist

end
-- ==== Proof.LibHostScatterIdeal.lean ====
import Idealize.ShloMosaic.PureOps.Ideal

/-!
  THE HOST'S ACCUMULATING SCATTER AT THE IDEAL VALUES, WITHOUT OPENING IT.

  The host program's accumulating float scatter `Host.scatterAdd d x idx upd` is, at the ideal values, the exact
  function `Ideal.hostScatterAdd d x idx upd`: each operand element plus the sum of the update elements that land on it.
  Both steps of this identification are definitional, but at a full-size update array (hundreds of thousands of
  updates) a goal must never be asked to see that by unfolding: the exact function's body is an extended-real sum over
  every update index. So the first step is stated for an ARBITRARY float instance, where the operation is a field of
  an unknown structure and nothing can unfold, and the second is the instance's own equation; a proof rewrites with
  this lemma as a whole and then reads the result with a lemma about `Ideal.hostScatterAdd` (a segment sum read at an
  index, say).
-/

namespace Idealize.ShloMosaic

/-- The host's accumulating scatter is the float instance's `hostScatterAdd` at the single-device schedule, at any
    instance. -/
theorem Host.scatterAdd_eq_hostScatterAdd {F : FTy → Type} [FloatOps F] {s si u : Shape} {φ : FTy} {w : Nat}
    (d : ScatterDims s si u) (x : FVec F s φ) (idx : IVec si w) (upd : FVec F u φ) :
    Host.scatterAdd d x idx upd = FloatOps.hostScatterAdd d .single x idx upd := rfl

/-- At the ideal values it is the exact accumulating scatter. -/
theorem Host.scatterAdd_ideal {s si u : Shape} {φ : FTy} {w : Nat}
    (d : ScatterDims s si u) (x : FVec Ideal s φ) (idx : IVec si w) (upd : FVec Ideal u φ) :
    Host.scatterAdd d x idx upd = Ideal.hostScatterAdd d x idx upd :=
  (Host.scatterAdd_eq_hostScatterAdd d x idx upd).trans (Ideal.hostScatterAdd_def d .single x idx upd)

end Idealize.ShloMosaic
-- ==== Proof.LibScatter1.lean ====
import Idealize.ShloMosaic.Lib.ValueIdx

/-!
  A SCATTER ONTO A VECTOR READ AT AN INDEX.

  An accumulating scatter whose scatter indices are one column of entry numbers — operand `[N]`, updates `[E]`,
  indices `[E, 1]`, update `e` added onto operand entry `idx e` (a segment sum) — is, at the ideal values and at
  operand index `n`, the operand there plus the sum of `u e` over the updates `e` whose entry number is `n`.
  The entry number is read SIGNED and is not clamped: an update whose entry number lies outside `[0, N)` lands
  nowhere and is dropped.

  Every lemma takes an arbitrary dimension record `d` of the right shapes together with the four equations that
  say its lists are those of such a scatter; for a record given by literal lists each equation is `rfl`.
-/

open scoped BigOperators
open Idealize.ShloMosaic Idealize.ShloMosaic.ValueIdx

namespace Scatter1

/-! ## A sum over a rank-1 index set -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Operand `[N]`, updates `[E]`, indices `[E, 1]` -/

variable {N E w : Nat} (d : ScatterDims ⟨1, ![N]⟩ ⟨2, ![E, 1]⟩ ⟨1, ![E]⟩)

/-- Update `e` reads its entry number at `(e, 0)` of the scatter indices. -/
theorem siIdx1 (huw : d.updateWindowDims = []) (hsd : d.scatterDimsToOperandDims = [0]) (hiv : d.indexVectorDim = 1)
    (e : Fin E) (c : Fin d.scatterDimsToOperandDims.length) :
    d.siIdx (ix1 e) c = ix2 e 0 := by
  obtain ⟨uw, iw, sd, iv, wf⟩ := d
  subst huw hsd hiv
  funext b
  match b with
  | ⟨0, _⟩ => rfl
  | ⟨1, _⟩ => exact Fin.ext (by have := c.isLt; simp at this; simpa [ScatterDims.siIdx] using this)

/-- The window of update `e` starts at its entry number, read signed. -/
theorem start1 (huw : d.updateWindowDims = []) (hsd : d.scatterDimsToOperandDims = [0]) (hiv : d.indexVectorDim = 1)
    (idx : IVec ⟨2, ![E, 1]⟩ w) (e : Fin E) :
    d.start (ix1 e) idx 0 = (idx (ix2 e 0)).toInt := by
  have hm : (0 : Fin 1) ∈ d.scatterDimsToOperandDims := by
    rw [hsd]; show (0 : Fin 1) ∈ ([0] : List (Fin 1)); decide
  unfold ScatterDims.start
  rw [dif_pos hm, siIdx1 d huw hsd hiv]

/-- The one operand axis is inserted: the window coordinate there is `0`. -/
theorem window1 (hiw : d.insertedWindowDims = [0]) (j : (⟨1, ![E]⟩ : Shape).Idx) :
    d.window j 0 = 0 := by
  have hm : ¬ (0 : Fin 1) ∈ d.sKept := by
    show ¬ (0 : Fin 1) ∈ Shape.kept _ d.insertedWindowDims
    rw [hiw]
    show ¬ (0 : Fin 1) ∈ (List.finRange 1).filter (fun a => a ∉ ([0] : List (Fin 1)))
    decide
  unfold ScatterDims.window
  rw [dif_neg hm]

/-- Update `e` lands at operand index `n` exactly when its entry number is `n`. -/
theorem resultIdx1 (huw : d.updateWindowDims = []) (hiw : d.insertedWindowDims = [0])
    (hsd : d.scatterDimsToOperandDims = [0]) (hiv : d.indexVectorDim = 1)
    (idx : IVec ⟨2, ![E, 1]⟩ w) (e : Fin E) (n : Fin N) :
    d.resultIdx? (ix1 e) idx = some (ix1 n) ↔ (idx (ix2 e 0)).toInt = (n.val : Int) := by
  have s0 := start1 d huw hsd hiv idx e
  have w0 := window1 d hiw (ix1 e)
  unfold ScatterDims.resultIdx?
  split
  · rename_i h
    constructor
    · intro he
      have hfun := Option.some.inj he
      have h0 : (d.start (ix1 e) idx 0 + d.window (ix1 e) 0).toNat = n.val :=
        congrArg Fin.val (congrFun hfun 0)
      have hh := (h 0).1
      rw [s0, w0] at h0 hh
      omega
    · intro hn
      congr 1
      funext a
      match a with
      | ⟨0, _⟩ =>
        exact Fin.ext (by
          show (d.start (ix1 e) idx 0 + d.window (ix1 e) 0).toNat = n.val
          rw [s0, w0]; omega)
  · rename_i h
    constructor
    · intro he; exact absurd he (by simp)
    · intro hn
      exfalso; apply h
      intro a
      match a with
      | ⟨0, _⟩ =>
        show 0 ≤ d.start (ix1 e) idx 0 + d.window (ix1 e) 0
          ∧ d.start (ix1 e) idx 0 + d.window (ix1 e) 0 < (N : Int)
        rw [s0, w0]; have := n.isLt; omega

/-- THE SCATTER ONTO A VECTOR AT AN INDEX: the operand at `n` plus the sum of `u e` over the updates `e` whose
    entry number, read signed, is `n`. -/
theorem hostScatterAdd_rows1 (huw : d.updateWindowDims = []) (hiw : d.insertedWindowDims = [0])
    (hsd : d.scatterDimsToOperandDims = [0]) (hiv : d.indexVectorDim = 1)
    (x : (⟨1, ![N]⟩ : Shape).Idx → EReal) (idx : IVec ⟨2, ![E, 1]⟩ w)
    (u : (⟨1, ![E]⟩ : Shape).Idx → EReal) (n : Fin N) :
    Ideal.hostScatterAdd d x idx u (ix1 n)
      = x (ix1 n) + ∑ e ∈ Finset.univ.filter (fun e : Fin E => (idx (ix2 e 0)).toInt = (n.val : Int)), u (ix1 e) := by
  unfold Ideal.hostScatterAdd
  congr 1
  rw [Finset.sum_filter, Finset.sum_filter, sum_idx1]
  refine Finset.sum_congr rfl fun e _ => ?_
  simp only [resultIdx1 d huw hiw hsd hiv idx e]

end Scatter1
-- ==== Proof.LibBlocks.lean ====
/-
  A sum over `a · b` consecutive indices, block by block.
-/
import Mathlib.Algebra.BigOperators.Fin
import Mathlib.Logic.Equiv.Fin.Basic

namespace Cert.LibBlocks

open Finset

/-- A sum over `Fin (a * b)` is the sum, over the `a` blocks of `b` consecutive indices, of the sums over each
    block: index `n + b * s` is element `n` of block `s`. -/
theorem sum_fin_mul {M : Type*} [AddCommMonoid M] (a b : ℕ) (g : Fin (a * b) → M) :
    ∑ N, g N = ∑ s : Fin a, ∑ n : Fin b, g (finProdFinEquiv (s, n)) := by
  rw [← Equiv.sum_comp (finProdFinEquiv (m := a) (n := b)) g, Fintype.sum_prod_type]

/-- The index `finProdFinEquiv` names. -/
theorem finProdFinEquiv_val {a b : ℕ} (s : Fin a) (n : Fin b) : (finProdFinEquiv (s, n)).val = n.val + b * s.val := rfl

end Cert.LibBlocks
-- ==== Proof.RefStats.lean ====
/-
  The reference program's three statistic vectors are the specification's.

  Each of the three vectors is a segment sum: entry k of a 17-vector of zeros receives the updates of the pixels whose
  bin word, read signed, is k, and the first 16 entries are kept.  Read at k this is the sum over all 4,194,304
  flattened pixels of the update where the pixel's bin word equals k and of zero elsewhere, that is of the indicator
  times the update.  The flattened pixel number e = (b·512 + h)·512 + w names image b, row h, column w; summing over
  e is summing over b, h and w, and the two inner sums may be exchanged.  The update is 1 for the count and the luma
  of the first, respectively second, input for the two sums; the bin word is that of the third input's luma.
-/
import proofs.«118964_j16312285790284_2_alg».proof.Proof.RefRead
import proofs.«118964_j16312285790284_2_alg».proof.Proof.Spec
import proofs.«118964_j16312285790284_2_alg».proof.Proof.LibHostScatterIdeal
import proofs.«118964_j16312285790284_2_alg».proof.Proof.LibScatter1
import proofs.«118964_j16312285790284_2_alg».proof.Proof.LibBlocks

noncomputable section

namespace Cert.Hist.Ref

open Cert.ReferenceIdeal Cert.ReferenceIdeal.Gen Cert.ReferenceIdeal.ReadP Idealize.ShloMosaic Idealize.ShloMosaic.ValueIdx
open scoped BigOperators

/-- An input array of the reference program. -/
abbrev Img : Type := (⟨S16x3x512x512, .f32⟩ : BufTy).Contents (Elt Ideal)

/-! ## The flattened pixel number -/

/-- Pixel `(h, w)` of image `b` has flattened number `(b·512 + h)·512 + w`. -/
def flat (b : Fin 16) (h w : Fin 512) : Fin 4194304 :=
  ⟨(b.val * 512 + h.val) * 512 + w.val, by have := b.isLt; have := h.isLt; have := w.isLt; omega⟩

theorem flat_val (b : Fin 16) (h w : Fin 512) : (flat b h w).val = (b.val * 512 + h.val) * 512 + w.val := rfl

/-- A sum over the flattened pixels is the sum over images, rows and columns. -/
theorem sum_pixels {M : Type*} [AddCommMonoid M] (g : Fin 4194304 → M) :
    ∑ e, g e = ∑ b : Fin 16, ∑ h : Fin 512, ∑ w : Fin 512, g (flat b h w) := by
  refine (Cert.LibBlocks.sum_fin_mul 16 262144 g).trans ?_
  refine Finset.sum_congr rfl fun b _ => ?_
  refine (Cert.LibBlocks.sum_fin_mul 512 512 (fun n : Fin (512 * 512) => g (finProdFinEquiv (b, n)))).trans ?_
  refine Finset.sum_congr rfl fun h _ => Finset.sum_congr rfl fun w _ => congrArg g (Fin.ext ?_)
  show w.val + 512 * h.val + 512 * 512 * b.val = (b.val * 512 + h.val) * 512 + w.val
  omega

/-! ## The luma of input x0 -/

theorem idx_x0_c0 (b : Fin 16) (h w : Fin 512) : idx_main_v0 (idx_main_v1 (ix3 b h w)) = ix4 b 0 h w := by
  have hb := b.isLt; have hh := h.isLt; have hw := w.isLt
  funext a
  match a with
  | ⟨0, _⟩ => exact Fin.ext (by show ((b.val * 512 + h.val) * 512 + w.val) / 262144 = b.val; omega)
  | ⟨1, _⟩ => exact Fin.ext (by show (0 : ℕ) = 0; rfl)
  | ⟨2, _⟩ => exact Fin.ext (by show ((b.val * 512 + h.val) * 512 + w.val) / 512 % 512 = h.val; omega)
  | ⟨3, _⟩ => exact Fin.ext (by show ((b.val * 512 + h.val) * 512 + w.val) % 512 = w.val; omega)

theorem idx_x0_c1 (b : Fin 16) (h w : Fin 512) : idx_main_v4 (idx_main_v5 (ix3 b h w)) = ix4 b 1 h w := by
  have hb := b.isLt; have hh := h.isLt; have hw := w.isLt
  funext a
  match a with
  | ⟨0, _⟩ => exact Fin.ext (by show ((b.val * 512 + h.val) * 512 + w.val) / 262144 = b.val; omega)
  | ⟨1, _⟩ => exact Fin.ext (by show 1 + 0 = 1; rfl)
  | ⟨2, _⟩ => exact Fin.ext (by show ((b.val * 512 + h.val) * 512 + w.val) / 512 % 512 = h.val; omega)
  | ⟨3, _⟩ => exact Fin.ext (by show ((b.val * 512 + h.val) * 512 + w.val) % 512 = w.val; omega)

theorem idx_x0_c2 (b : Fin 16) (h w : Fin 512) : idx_main_v9 (idx_main_v10 (ix3 b h w)) = ix4 b 2 h w := by
  have hb := b.isLt; have hh := h.isLt; have hw := w.isLt
  funext a
  match a with
  | ⟨0, _⟩ => exact Fin.ext (by show ((b.val * 512 + h.val) * 512 + w.val) / 262144 = b.val; omega)
  | ⟨1, _⟩ => exact Fin.ext (by show 2 + 0 = 2; rfl)
  | ⟨2, _⟩ => exact Fin.ext (by show ((b.val * 512 + h.val) * 512 + w.val) / 512 % 512 = h.val; omega)
  | ⟨3, _⟩ => exact Fin.ext (by show ((b.val * 512 + h.val) * 512 + w.val) % 512 = w.val; omega)

/-- The weighted channel sum at image `b`, pixel `(h, w)` is the specification's luma. -/
theorem luma_x0 (x : Img) (b : Fin 16) (h w : Fin 512) :
    val_main_v13 (F := Ideal) x (ix3 b h w) = luma x b h w := by
  simp only [val_main_v13_apply, val_main_v12_apply, val_main_v11_apply, val_main_cst_1_apply, val_main_v10_apply, val_main_v9_apply,
    val_main_v8_apply, val_main_v7_apply, val_main_v6_apply, val_main_cst_0_apply, val_main_v5_apply, val_main_v4_apply,
    val_main_v3_apply, val_main_v2_apply, val_main_cst_apply, val_main_v1_apply, val_main_v0_apply,
    idx_x0_c0, idx_x0_c1, idx_x0_c2]
  rfl

theorem idx_x0_flat (b : Fin 16) (h w : Fin 512) : idx_main_v14 (ix1 (flat b h w)) = ix3 b h w := by
  have hb := b.isLt; have hh := h.isLt; have hw := w.isLt
  funext a
  match a with
  | ⟨0, _⟩ => exact Fin.ext (by show ((b.val * 512 + h.val) * 512 + w.val) / 262144 = b.val; omega)
  | ⟨1, _⟩ => exact Fin.ext (by show ((b.val * 512 + h.val) * 512 + w.val) / 512 % 512 = h.val; omega)
  | ⟨2, _⟩ => exact Fin.ext (by show ((b.val * 512 + h.val) * 512 + w.val) % 512 = w.val; omega)

/-- The flattened luma at pixel number `(b·512 + h)·512 + w`. -/
theorem flatLuma_x0 (x : Img) (b : Fin 16) (h w : Fin 512) :
    val_main_v14 (F := Ideal) x (ix1 (flat b h w)) = luma x b h w := by
  rw [val_main_v14_apply, idx_x0_flat, luma_x0]

/-! ## The luma of input x1 -/

theorem idx_x1_c0 (b : Fin 16) (h w : Fin 512) : idx_main_v15 (idx_main_v16 (ix3 b h w)) = ix4 b 0 h w := by
  have hb := b.isLt; have hh := h.isLt; have hw := w.isLt
  funext a
  match a with
  | ⟨0, _⟩ => exact Fin.ext (by show ((b.val * 512 + h.val) * 512 + w.val) / 262144 = b.val; omega)
  | ⟨1, _⟩ => exact Fin.ext (by show (0 : ℕ) = 0; rfl)
  | ⟨2, _⟩ => exact Fin.ext (by show ((b.val * 512 + h.val) * 512 + w.val) / 512 % 512 = h.val; omega)
  | ⟨3, _⟩ => exact Fin.ext (by show ((b.val * 512 + h.val) * 512 + w.val) % 512 = w.val; omega)

theorem idx_x1_c1 (b : Fin 16) (h w : Fin 512) : idx_main_v19 (idx_main_v20 (ix3 b h w)) = ix4 b 1 h w := by
  have hb := b.isLt; have hh := h.isLt; have hw := w.isLt
  funext a
  match a with
  | ⟨0, _⟩ => exact Fin.ext (by show ((b.val * 512 + h.val) * 512 + w.val) / 262144 = b.val; omega)
  | ⟨1, _⟩ => exact Fin.ext (by show 1 + 0 = 1; rfl)
  | ⟨2, _⟩ => exact Fin.ext (by show ((b.val * 512 + h.val) * 512 + w.val) / 512 % 512 = h.val; omega)
  | ⟨3, _⟩ => exact Fin.ext (by show ((b.val * 512 + h.val) * 512 + w.val) % 512 = w.val; omega)

theorem idx_x1_c2 (b : Fin 16) (h w : Fin 512) : idx_main_v24 (idx_main_v25 (ix3 b h w)) = ix4 b 2 h w := by
  have hb := b.isLt; have hh := h.isLt; have hw := w.isLt
  funext a
  match a with
  | ⟨0, _⟩ => exact Fin.ext (by show ((b.val * 512 + h.val) * 512 + w.val) / 262144 = b.val; omega)
  | ⟨1, _⟩ => exact Fin.ext (by show 2 + 0 = 2; rfl)
  | ⟨2, _⟩ => exact Fin.ext (by show ((b.val * 512 + h.val) * 512 + w.val) / 512 % 512 = h.val; omega)
  | ⟨3, _⟩ => exact Fin.ext (by show ((b.val * 512 + h.val) * 512 + w.val) % 512 = w.val; omega)

/-- The weighted channel sum at image `b`, pixel `(h, w)` is the specification's luma. -/
theorem luma_x1 (x : Img) (b : Fin 16) (h w : Fin 512) :
    val_main_v28 (F := Ideal) x (ix3 b h w) = luma x b h w := by
  simp only [val_main_v28_apply, val_main_v27_apply, val_main_v26_apply, val_main_cst_4_apply, val_main_v25_apply, val_main_v24_apply,
    val_main_v23_apply, val_main_v22_apply, val_main_v21_apply, val_main_cst_3_apply, val_main_v20_apply, val_main_v19_apply,
    val_main_v18_apply, val_main_v17_apply, val_main_cst_2_apply, val_main_v16_apply, val_main_v15_apply,
    idx_x1_c0, idx_x1_c1, idx_x1_c2]
  rfl

theorem idx_x1_flat (b : Fin 16) (h w : Fin 512) : idx_main_v29 (ix1 (flat b h w)) = ix3 b h w := by
  have hb := b.isLt; have hh := h.isLt; have hw := w.isLt
  funext a
  match a with
  | ⟨0, _⟩ => exact Fin.ext (by show ((b.val * 512 + h.val) * 512 + w.val) / 262144 = b.val; omega)
  | ⟨1, _⟩ => exact Fin.ext (by show ((b.val * 512 + h.val) * 512 + w.val) / 512 % 512 = h.val; omega)
  | ⟨2, _⟩ => exact Fin.ext (by show ((b.val * 512 + h.val) * 512 + w.val) % 512 = w.val; omega)

/-- The flattened luma at pixel number `(b·512 + h)·512 + w`. -/
theorem flatLuma_x1 (x : Img) (b : Fin 16) (h w : Fin 512) :
    val_main_v29 (F := Ideal) x (ix1 (flat b h w)) = luma x b h w := by
  rw [val_main_v29_apply, idx_x1_flat, luma_x1]

/-! ## The luma of input x2 -/

theorem idx_x2_c0 (b : Fin 16) (h w : Fin 512) : idx_main_v30 (idx_main_v31 (ix3 b h w)) = ix4 b 0 h w := by
  have hb := b.isLt; have hh := h.isLt; have hw := w.isLt
  funext a
  match a with
  | ⟨0, _⟩ => exact Fin.ext (by show ((b.val * 512 + h.val) * 512 + w.val) / 262144 = b.val; omega)
  | ⟨1, _⟩ => exact Fin.ext (by show (0 : ℕ) = 0; rfl)
  | ⟨2, _⟩ => exact Fin.ext (by show ((b.val * 512 + h.val) * 512 + w.val) / 512 % 512 = h.val; omega)
  | ⟨3, _⟩ => exact Fin.ext (by show ((b.val * 512 + h.val) * 512 + w.val) % 512 = w.val; omega)

theorem idx_x2_c1 (b : Fin 16) (h w : Fin 512) : idx_main_v34 (idx_main_v35 (ix3 b h w)) = ix4 b 1 h w := by
  have hb := b.isLt; have hh := h.isLt; have hw := w.isLt
  funext a
  match a with
  | ⟨0, _⟩ => exact Fin.ext (by show ((b.val * 512 + h.val) * 512 + w.val) / 262144 = b.val; omega)
  | ⟨1, _⟩ => exact Fin.ext (by show 1 + 0 = 1; rfl)
  | ⟨2, _⟩ => exact Fin.ext (by show ((b.val * 512 + h.val) * 512 + w.val) / 512 % 512 = h.val; omega)
  | ⟨3, _⟩ => exact Fin.ext (by show ((b.val * 512 + h.val) * 512 + w.val) % 512 = w.val; omega)

theorem idx_x2_c2 (b : Fin 16) (h w : Fin 512) : idx_main_v39 (idx_main_v40 (ix3 b h w)) = ix4 b 2 h w := by
  have hb := b.isLt; have hh := h.isLt; have hw := w.isLt
  funext a
  match a with
  | ⟨0, _⟩ => exact Fin.ext (by show ((b.val * 512 + h.val) * 512 + w.val) / 262144 = b.val; omega)
  | ⟨1, _⟩ => exact Fin.ext (by show 2 + 0 = 2; rfl)
  | ⟨2, _⟩ => exact Fin.ext (by show ((b.val * 512 + h.val) * 512 + w.val) / 512 % 512 = h.val; omega)
  | ⟨3, _⟩ => exact Fin.ext (by show ((b.val * 512 + h.val) * 512 + w.val) % 512 = w.val; omega)

/-- The weighted channel sum at image `b`, pixel `(h, w)` is the specification's luma. -/
theorem luma_x2 (x : Img) (b : Fin 16) (h w : Fin 512) :
    val_main_v43 (F := Ideal) x (ix3 b h w) = luma x b h w := by
  simp only [val_main_v43_apply, val_main_v42_apply, val_main_v41_apply, val_main_cst_7_apply, val_main_v40_apply, val_main_v39_apply,
    val_main_v38_apply, val_main_v37_apply, val_main_v36_apply, val_main_cst_6_apply, val_main_v35_apply, val_main_v34_apply,
    val_main_v33_apply, val_main_v32_apply, val_main_cst_5_apply, val_main_v31_apply, val_main_v30_apply,
    idx_x2_c0, idx_x2_c1, idx_x2_c2]
  rfl

theorem idx_x2_flat (b : Fin 16) (h w : Fin 512) : idx_main_v44 (ix1 (flat b h w)) = ix3 b h w := by
  have hb := b.isLt; have hh := h.isLt; have hw := w.isLt
  funext a
  match a with
  | ⟨0, _⟩ => exact Fin.ext (by show ((b.val * 512 + h.val) * 512 + w.val) / 262144 = b.val; omega)
  | ⟨1, _⟩ => exact Fin.ext (by show ((b.val * 512 + h.val) * 512 + w.val) / 512 % 512 = h.val; omega)
  | ⟨2, _⟩ => exact Fin.ext (by show ((b.val * 512 + h.val) * 512 + w.val) % 512 = w.val; omega)

/-- The flattened luma at pixel number `(b·512 + h)·512 + w`. -/
theorem flatLuma_x2 (x : Img) (b : Fin 16) (h w : Fin 512) :
    val_main_v44 (F := Ideal) x (ix1 (flat b h w)) = luma x b h w := by
  rw [val_main_v44_apply, idx_x2_flat, luma_x2]

/-! ## The bin word -/

/-- The index word of a flattened pixel is the bin word of the third input's luma there. -/
theorem binWord_at (x2 : Img) (i : S4194304.Idx) :
    val_main_v52 (F := Ideal) x2 i = binWord (val_main_v44 (F := Ideal) x2 i) := by
  simp only [val_main_v52_apply, val_main_v51_apply, val_main_v50_apply, val_main_cst_10_apply,
    val_main_call1_v1_apply, val_main_call1_v0_apply, val_main_c_11_apply,
    val_main_v49_apply, val_main_call0_v4_apply, val_main_call0_v3_apply, val_main_c_9_apply,
    val_main_call0_v2_apply, val_main_call0_v1_apply, val_main_call0_v0_apply, val_main_c_apply,
    val_main_v48_apply, val_main_v47_apply, val_main_v46_apply, val_main_v45_apply, val_main_cst_8_apply,
    Ideal.hostUnary_floor_def, Ideal.mulf_def, Ideal.ofBits_def]
  rfl

theorem binWord_flat (x2 : Img) (b : Fin 16) (h w : Fin 512) :
    val_main_v52 (F := Ideal) x2 (ix1 (flat b h w)) = binWord (luma x2 b h w) := by
  rw [binWord_at, flatLuma_x2]

/-- A 32-bit word read signed is the number `k < 17` exactly when it is the word of `k`. -/
theorem toInt_eq_iff (v : BitVec 32) (k : Nat) (hk : k < 17) : v.toInt = (k : ℤ) ↔ v = BitVec.ofNat 32 k := by
  have e := BitVec.toInt_eq_toNat_cond v
  constructor
  · intro h
    apply BitVec.eq_of_toNat_eq
    rw [BitVec.toNat_ofNat]
    split at e <;> omega
  · intro h
    have t : v.toNat = k % 2 ^ 32 := by rw [h, BitVec.toNat_ofNat]
    split at e <;> omega

/-! ## A segment sum read at a bin -/

/-- Entry `k` of the 17-vector, for `k < 16`. -/
def k17 (k : Fin 16) : Fin 17 := ⟨k.val, by have := k.isLt; omega⟩

/-- A segment sum over the flattened pixels whose index words are the bin words, from a 17-vector that is zero
    at `k`, read at `k`: the sum over images, columns and rows of the indicator of the bin times the update. -/
theorem segsum (x2 : Img) (z : FVec Ideal S17 .f32) (idx : IVec S4194304x1 32) (u : FVec Ideal S4194304 .f32)
    (t : Fin 16 → Fin 512 → Fin 512 → EReal) (k : Fin 16)
    (hz : z (ix1 (k17 k)) = 0)
    (hidx : ∀ e : Fin 4194304, idx (ix2 e 0) = val_main_v52 (F := Ideal) x2 (ix1 e))
    (hu : ∀ b h w, u (ix1 (flat b h w)) = t b h w) :
    Host.scatterAdd (F := Ideal) (φ := .f32) scatter_S17_S4194304x1_S4194304_n_0_0_1 z idx u (ix1 (k17 k))
      = ∑ b : Fin 16, ∑ w : Fin 512, ∑ h : Fin 512,
          ind (binWord (luma x2 b h w)) (BitVec.ofNat 32 k.val) * t b h w := by
  rw [Host.scatterAdd_ideal]
  rw [Scatter1.hostScatterAdd_rows1 scatter_S17_S4194304x1_S4194304_n_0_0_1 rfl rfl rfl rfl z idx u (k17 k)]
  rw [hz, zero_add, Finset.sum_filter, sum_pixels]
  refine Finset.sum_congr rfl fun b _ => ?_
  rw [Finset.sum_comm]
  refine Finset.sum_congr rfl fun w _ => Finset.sum_congr rfl fun h _ => ?_
  rw [hidx, binWord_flat, hu]
  unfold ind
  have hiff : (binWord (luma x2 b h w)).toInt = (((k17 k).val : ℕ) : ℤ)
      ↔ binWord (luma x2 b h w) = BitVec.ofNat 32 k.val :=
    toInt_eq_iff _ k.val (by have := k.isLt; omega)
  by_cases hc : binWord (luma x2 b h w) = BitVec.ofNat 32 k.val
  · rw [if_pos hc, if_pos (hiff.mpr hc), one_mul]
  · rw [if_neg hc, if_neg (mt hiff.mp hc), zero_mul]

/-! ## The three statistic vectors -/

theorem idx_57 (k : Fin 16) : idx_main_v57 (ix1 k) = ix1 (k17 k) := by
  funext a; match a with | ⟨0, _⟩ => rfl

theorem idx_55 (e : Fin 4194304) : idx_main_v55 (ix2 e 0) = ix1 e := by
  funext a; match a with | ⟨0, _⟩ => rfl

theorem zero_54 (i : S17.Idx) : val_main_v54 (F := Ideal) i = 0 := by
  rw [val_main_v54_apply, val_main_cst_13_apply, Ideal.ofBits_def, Ideal.ofBits_zero_f32]

/-- The update of the count is one. -/
theorem one_53 (i : S4194304.Idx) : val_main_v53 (F := Ideal) i = 1 := by
  rw [val_main_v53_apply, val_main_cst_12_apply, Ideal.ofBits_def, Ideal.ofBits_one_f32]

/-- The count of bin `k`. -/
theorem counts_entry (x0 x1 x2 : Img) (k : Fin 16) :
    val_main_v57 (F := Ideal) x2 (ix1 k) = stat x0 x1 x2 0 k := by
  rw [val_main_v57_apply, idx_57]
  unfold val_main_v56
  refine (segsum x2 _ _ _ (fun _ _ _ => 1) k (zero_54 _) (fun e => by rw [val_main_v55_apply, idx_55])
    (fun b h w => one_53 _)).trans ?_
  unfold stat imageSum
  refine Finset.sum_congr rfl fun b _ => Finset.sum_congr rfl fun w _ => Finset.sum_congr rfl fun h _ => ?_
  rw [term_zero, mul_one]

theorem idx_61 (k : Fin 16) : idx_main_v61 (ix1 k) = ix1 (k17 k) := by
  funext a; match a with | ⟨0, _⟩ => rfl

theorem idx_59 (e : Fin 4194304) : idx_main_v59 (ix2 e 0) = ix1 e := by
  funext a; match a with | ⟨0, _⟩ => rfl

theorem zero_58 (i : S17.Idx) : val_main_v58 (F := Ideal) i = 0 := by
  rw [val_main_v58_apply, val_main_cst_14_apply, Ideal.ofBits_def, Ideal.ofBits_zero_f32]

/-- The first input's luma summed over bin `k`. -/
theorem psum_entry (x0 x1 x2 : Img) (k : Fin 16) :
    val_main_v61 (F := Ideal) x0 x2 (ix1 k) = stat x0 x1 x2 1 k := by
  rw [val_main_v61_apply, idx_61]
  unfold val_main_v60
  refine (segsum x2 _ _ _ (fun b h w => luma x0 b h w) k (zero_58 _) (fun e => by rw [val_main_v59_apply, idx_59])
    (fun b h w => flatLuma_x0 x0 b h w)).trans ?_
  unfold stat imageSum
  refine Finset.sum_congr rfl fun b _ => Finset.sum_congr rfl fun w _ => Finset.sum_congr rfl fun h _ => ?_
  rw [term_one]

theorem idx_65 (k : Fin 16) : idx_main_v65 (ix1 k) = ix1 (k17 k) := by
  funext a; match a with | ⟨0, _⟩ => rfl

theorem idx_63 (e : Fin 4194304) : idx_main_v63 (ix2 e 0) = ix1 e := by
  funext a; match a with | ⟨0, _⟩ => rfl

theorem zero_62 (i : S17.Idx) : val_main_v62 (F := Ideal) i = 0 := by
  rw [val_main_v62_apply, val_main_cst_15_apply, Ideal.ofBits_def, Ideal.ofBits_zero_f32]

/-- The second input's luma summed over bin `k`. -/
theorem tsum_entry (x0 x1 x2 : Img) (k : Fin 16) :
    val_main_v65 (F := Ideal) x1 x2 (ix1 k) = stat x0 x1 x2 2 k := by
  rw [val_main_v65_apply, idx_65]
  unfold val_main_v64
  refine (segsum x2 _ _ _ (fun b h w => luma x1 b h w) k (zero_62 _) (fun e => by rw [val_main_v63_apply, idx_63])
    (fun b h w => flatLuma_x1 x1 b h w)).trans ?_
  unfold stat imageSum
  refine Finset.sum_congr rfl fun b _ => Finset.sum_congr rfl fun w _ => Finset.sum_congr rfl fun h _ => ?_
  rw [term_two]

/-- The reference's count vector is the specification's. -/
theorem counts_eq (x0 x1 x2 : Img) : val_main_v57 (F := Ideal) x2 = statVec x0 x1 x2 0 := by
  funext i
  obtain ⟨k, rfl⟩ : ∃ k : Fin 16, i = ix1 k := ⟨i 0, eq_ix1 i⟩
  exact counts_entry x0 x1 x2 k

/-- The reference's first sum vector is the specification's. -/
theorem psum_eq (x0 x1 x2 : Img) : val_main_v61 (F := Ideal) x0 x2 = statVec x0 x1 x2 1 := by
  funext i
  obtain ⟨k, rfl⟩ : ∃ k : Fin 16, i = ix1 k := ⟨i 0, eq_ix1 i⟩
  exact psum_entry x0 x1 x2 k

/-- The reference's second sum vector is the specification's. -/
theorem tsum_eq (x0 x1 x2 : Img) : val_main_v65 (F := Ideal) x1 x2 = statVec x0 x1 x2 2 := by
  funext i
  obtain ⟨k, rfl⟩ : ∃ k : Fin 16, i = ix1 k := ⟨i 0, eq_ix1 i⟩
  exact tsum_entry x0 x1 x2 k

/-! ## The scalar result -/

/-- The reference's last lines are the specification's tail of its three vectors. -/
theorem result_of_vectors (x0 x1 x2 : Img) :
    val_main_v76 (F := Ideal) x0 x1 x2
      = tail bcast_S_S16 reducesTo_S16_S_d0 h_S_ (val_main_v57 (F := Ideal) x2) (val_main_v61 (F := Ideal) x0 x2)
          (val_main_v65 (F := Ideal) x1 x2) := by
  unfold val_main_v76 val_main_v75 val_main_v74 val_main_v73 val_main_v72 val_main_v71 val_main_v70 val_main_v69
    val_main_v68 val_main_v67 val_main_v66 val_main_call2_v1 val_main_call2_v0 val_main_cst_16 val_main_cst_17
    val_main_cst_18 val_main_cst_19 val_main_cst_20 tail
  rfl

/-- The reference's result is the specification's tail of the specification's statistics. -/
theorem result_eq (x0 x1 x2 : Img) :
    val_main_v76 (F := Ideal) x0 x1 x2
      = tail bcast_S_S16 reducesTo_S16_S_d0 h_S_ (statVec x0 x1 x2 0) (statVec x0 x1 x2 1) (statVec x0 x1 x2 2) := by
  rw [result_of_vectors, counts_eq x0 x1 x2, psum_eq x0 x1 x2, tsum_eq x0 x1 x2]

end Cert.Hist.Ref

end
-- ==== Proof.KBlock.lean ====
/-
  The input blocks of a grid point are one image of each input array.

  The grid has 2 × 8 points, point `t` = 8·core + step.  Each input window's block at point `t` is image `t` of its
  array (block index `(t, 0, 0, 0)`, block size `1 × 3 × 512 × 512`), so an entry `(0, ch, h, w)` of the block is the
  array's entry `(t, ch, h, w)`; hence the luma of the block's one image is the luma of image `t`, and the block's
  image sum for any statistic and bin word is the array's image sum at image `t`.  The output window's block at
  point `t` is row `t / 8` (the core) of the `2 × 3 × 16` result array.
-/
import proofs.«118964_j16312285790284_2_alg».proof.Proof.Gen.KernelIdeal.Frame
import proofs.«118964_j16312285790284_2_alg».proof.Proof.Spec
import Idealize.ShloMosaic.Lib.Pipeline.Value
import Idealize.ShloMosaic.Lib.ValueIdx

noncomputable section

namespace Cert.KernelIdeal.Hist

open Cert.KernelIdeal Cert.KernelIdeal.Gen
open Idealize.ShloMosaic Idealize.ShloMosaic.TcCoe Idealize.SL.Sem Idealize.ShloMosaic.ValueIdx
open scoped BigOperators

variable (m : (ℓ : Loc nD τ sig) → Buf (Elt Ideal) ℓ)

/-- The printed index maps over the grid: each input block is image `t`, the output block is row `t / 8`. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 4) = t.val ∧ win0_2.index t (1 : Fin 4) = 0 ∧ win0_2.index t (2 : Fin 4) = 0 ∧ win0_2.index t (3 : Fin 4) = 0)
    ∧ (win0_3.index t (0 : Fin 3) = t.val / 8 ∧ win0_3.index t (1 : Fin 3) = 0 ∧ win0_3.index t (2 : Fin 3) = 0) :=
  (by decide +kernel : ∀ t : Fin grid0.N, _)

theorem N16 : cfg0.N = 16 := N_0

/-- Point `t` as an image number. -/
def img (t : Fin cfg0.N) : Fin 16 := ⟨t.val, lt_of_lt_of_eq t.isLt N16⟩

/-- The first input's block at point `t`, at channel `ch` and pixel `(h, w)`, is the array at image `t`. -/
theorem iblk0_apply (c : Dev nD) (t : Fin cfg0.N) (ch : Fin 3) (h w : Fin 512) :
    (iblk m c 0 t : Vec Ideal S1x3x512x512 .f32) (ix4 (0 : Fin 1) ch h w) = m ((c : Thread nD τ).loc main_arg0) (ix4 (img t) ch h w) := by
  obtain ⟨⟨e0, e1, e2, e3⟩, -, -, -⟩ := idx_facts t
  unfold iblk
  rw [View.read_apply]
  show V m c main_arg0 _ = m ((c : Thread nD τ).loc main_arg0) _
  unfold V
  congr 1
  funext a
  apply Fin.ext
  match a with
  | ⟨0, _⟩ => show win0_0.index t (0 : Fin 4) * 1 + 1 * 0 = t.val; omega
  | ⟨1, _⟩ => show win0_0.index t (1 : Fin 4) * 3 + 1 * ch.val = ch.val; omega
  | ⟨2, _⟩ => show win0_0.index t (2 : Fin 4) * 512 + 1 * h.val = h.val; omega
  | ⟨3, _⟩ => show win0_0.index t (3 : Fin 4) * 512 + 1 * w.val = w.val; omega

/-- The second input's block likewise. -/
theorem iblk1_apply (c : Dev nD) (t : Fin cfg0.N) (ch : Fin 3) (h w : Fin 512) :
    (iblk m c 1 t : Vec Ideal S1x3x512x512 .f32) (ix4 (0 : Fin 1) ch h w) = m ((c : Thread nD τ).loc main_arg1) (ix4 (img t) ch h w) := by
  obtain ⟨-, ⟨e0, e1, e2, e3⟩, -, -⟩ := idx_facts t
  unfold iblk
  rw [View.read_apply]
  show V m c main_arg1 _ = m ((c : Thread nD τ).loc main_arg1) _
  unfold V
  congr 1
  funext a
  apply Fin.ext
  match a with
  | ⟨0, _⟩ => show win0_1.index t (0 : Fin 4) * 1 + 1 * 0 = t.val; omega
  | ⟨1, _⟩ => show win0_1.index t (1 : Fin 4) * 3 + 1 * ch.val = ch.val; omega
  | ⟨2, _⟩ => show win0_1.index t (2 : Fin 4) * 512 + 1 * h.val = h.val; omega
  | ⟨3, _⟩ => show win0_1.index t (3 : Fin 4) * 512 + 1 * w.val = w.val; omega

/-- The third input's block likewise. -/
theorem iblk2_apply (c : Dev nD) (t : Fin cfg0.N) (ch : Fin 3) (h w : Fin 512) :
    (iblk m c 2 t : Vec Ideal S1x3x512x512 .f32) (ix4 (0 : Fin 1) ch h w) = m ((c : Thread nD τ).loc main_arg2) (ix4 (img t) ch h w) := by
  obtain ⟨-, -, ⟨e0, e1, e2, e3⟩, -⟩ := idx_facts t
  unfold iblk
  rw [View.read_apply]
  show V m c main_arg2 _ = m ((c : Thread nD τ).loc main_arg2) _
  unfold V
  congr 1
  funext a
  apply Fin.ext
  match a with
  | ⟨0, _⟩ => show win0_2.index t (0 : Fin 4) * 1 + 1 * 0 = t.val; omega
  | ⟨1, _⟩ => show win0_2.index t (1 : Fin 4) * 3 + 1 * ch.val = ch.val; omega
  | ⟨2, _⟩ => show win0_2.index t (2 : Fin 4) * 512 + 1 * h.val = h.val; omega
  | ⟨3, _⟩ => show win0_2.index t (3 : Fin 4) * 512 + 1 * w.val = w.val; omega

/-- The three input arrays as the program finds them. -/
abbrev X0 (c : Dev nD) : (Cert.Hist.Imgs 16).Idx → EReal := m ((c : Thread nD τ).loc main_arg0)
abbrev X1 (c : Dev nD) : (Cert.Hist.Imgs 16).Idx → EReal := m ((c : Thread nD τ).loc main_arg1)
abbrev X2 (c : Dev nD) : (Cert.Hist.Imgs 16).Idx → EReal := m ((c : Thread nD τ).loc main_arg2)

/-- The luma of a block's one image is the luma of image `t` of its array. -/
theorem luma_iblk0 (c : Dev nD) (t : Fin cfg0.N) (h w : Fin 512) :
    Cert.Hist.luma (n := 1) (iblk m c 0 t : Vec Ideal S1x3x512x512 .f32) 0 h w = Cert.Hist.luma (n := 16) (X0 m c) (img t) h w := by
  unfold Cert.Hist.luma
  rw [iblk0_apply, iblk0_apply, iblk0_apply]
theorem luma_iblk1 (c : Dev nD) (t : Fin cfg0.N) (h w : Fin 512) :
    Cert.Hist.luma (n := 1) (iblk m c 1 t : Vec Ideal S1x3x512x512 .f32) 0 h w = Cert.Hist.luma (n := 16) (X1 m c) (img t) h w := by
  unfold Cert.Hist.luma
  rw [iblk1_apply, iblk1_apply, iblk1_apply]
theorem luma_iblk2 (c : Dev nD) (t : Fin cfg0.N) (h w : Fin 512) :
    Cert.Hist.luma (n := 1) (iblk m c 2 t : Vec Ideal S1x3x512x512 .f32) 0 h w = Cert.Hist.luma (n := 16) (X2 m c) (img t) h w := by
  unfold Cert.Hist.luma
  rw [iblk2_apply, iblk2_apply, iblk2_apply]

/-- So a point's image sum over its blocks is the arrays' image sum at image `t`. -/
theorem imageSum_iblk (c : Dev nD) (t : Fin cfg0.N) (r : Fin 3) (kw : BitVec 32) :
    Cert.Hist.imageSum (n := 1) (iblk m c 0 t : Vec Ideal S1x3x512x512 .f32) (iblk m c 1 t : Vec Ideal S1x3x512x512 .f32)
        (iblk m c 2 t : Vec Ideal S1x3x512x512 .f32) r kw 0
      = Cert.Hist.imageSum (n := 16) (X0 m c) (X1 m c) (X2 m c) r kw (img t) := by
  unfold Cert.Hist.imageSum
  refine Finset.sum_congr rfl fun w _ => Finset.sum_congr rfl fun h _ => ?_
  match r with
  | 0 => rw [Cert.Hist.term_zero, Cert.Hist.term_zero, luma_iblk2]
  | 1 => rw [Cert.Hist.term_one, Cert.Hist.term_one, luma_iblk2, luma_iblk0]
  | 2 => rw [Cert.Hist.term_two, Cert.Hist.term_two, luma_iblk2, luma_iblk1]

end Cert.KernelIdeal.Hist

end
-- ==== Proof.KAcc.lean ====
/-
  The result array of the kernel region: per core, the sum of its eight points' image sums.

  One run of the body adds the point's image sums into the output block; at the first step of a core (point ≡ 0 mod 8)
  the block is zeroed first (the two propositions `StepA`, `StepB` below say so, entry by entry).  By induction on
  the point, after point `n` the block's entry `(0, r, k)` is the sum of the image sums of the points
  `8·(n/8), …, n` of the same core, in point order.  The block is written back after the last step of each core
  (points 7 and 15) to row `n/8` of the `2 × 3 × 16` result array, and the two rows tile the array; so the array's entry
  `(core, r, k)` ends as the sum over the images `8·core ≤ p < 8·core + 8` of image `p`'s sum for statistic `r` and
  bin `k`.
-/
import proofs.«118964_j16312285790284_2_alg».proof.Proof.KBlock
import Idealize.ShloMosaic.Lib.Pipeline.Value
import Idealize.ShloMosaic.Lib.ValueIdx

noncomputable section

namespace Cert.KernelIdeal.Hist

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-- A first step of a core leaves, at entry `(0, r, k)` of the output block, the image sum of its three input blocks. -/
def StepA : Prop :=
  ∀ (c : Dev nD) (i : grid0.Coords) (arg2 : Memref sig .tc .vmem S1x3x512x512 .f32) (harg2 : arg2.IsWhole)
    (arg3 : Memref sig .tc .vmem S1x3x512x512 .f32) (harg3 : arg3.IsWhole) (arg4 : Memref sig .tc .vmem S1x3x512x512 .f32) (harg4 : arg4.IsWhole)
    (arg5 : Memref sig .tc .vmem S1x3x16 .f32) (harg5 : arg5.IsWhole) (hc0 : cond0_0 i)
    (x0 x1 x2 : Vec Ideal S1x3x512x512 .f32) (r : Fin 3) (k : Fin 16),
    out0_A_3 (F := Ideal) c i arg2 harg2 arg3 harg3 arg4 harg4 arg5 harg5 hc0 x0 x1 x2 (ix3 (0 : Fin 1) r k)
      = Cert.Hist.imageSum (n := 1) x0 x1 x2 r (BitVec.ofNat 32 k.val) 0

/-- A later step adds that image sum to what the step before left. -/
def StepB : Prop :=
  ∀ (c : Dev nD) (i : grid0.Coords) (arg2 : Memref sig .tc .vmem S1x3x512x512 .f32) (harg2 : arg2.IsWhole)
    (arg3 : Memref sig .tc .vmem S1x3x512x512 .f32) (harg3 : arg3.IsWhole) (arg4 : Memref sig .tc .vmem S1x3x512x512 .f32) (harg4 : arg4.IsWhole)
    (arg5 : Memref sig .tc .vmem S1x3x16 .f32) (harg5 : arg5.IsWhole) (hc0 : ¬cond0_0 i)
    (x0 x1 x2 : Vec Ideal S1x3x512x512 .f32) (xo3 : Vec Ideal S1x3x16 .f32) (r : Fin 3) (k : Fin 16),
    out0_B_3 (F := Ideal) c i arg2 harg2 arg3 harg3 arg4 harg4 arg5 harg5 hc0 x0 x1 x2 xo3 (ix3 (0 : Fin 1) r k)
      = xo3 (ix3 (0 : Fin 1) r k) + Cert.Hist.imageSum (n := 1) x0 x1 x2 r (BitVec.ofNat 32 k.val) 0

variable (m : (ℓ : Loc nD τ sig) → Buf (Elt Ideal) ℓ)

/-- Image `p`'s sum for statistic `r` and bin word `kw` (zero past the sixteen images). -/
def IS (c : Dev nD) (r : Fin 3) (kw : BitVec 32) (p : ℕ) : EReal :=
  if hp : p < 16 then Cert.Hist.imageSum (n := 16) (X0 m c) (X1 m c) (X2 m c) r kw ⟨p, hp⟩ else 0

theorem IS_img (c : Dev nD) (r : Fin 3) (kw : BitVec 32) (t : Fin cfg0.N) :
    IS m c r kw t.val = Cert.Hist.imageSum (n := 16) (X0 m c) (X1 m c) (X2 m c) r kw (img t) := by
  unfold IS
  rw [dif_pos (lt_of_lt_of_eq t.isLt N16)]
  rfl

/-- THE ACCUMULATION: after point `n` the output block's entry `(0, r, k)` is the sum of the image sums of the points of
    the same core up to `n`. -/
theorem outsAt_apply (hA : StepA) (hB : StepB) (c : Dev nD) (r : Fin 3) (k : Fin 16) :
    ∀ (n : ℕ) (h : n < cfg0.N), outsAt0 (F := Ideal) m c n h (ix3 (0 : Fin 1) r k)
      = ∑ p ∈ Finset.Ico (8 * (n / 8)) (n + 1), IS m c r (BitVec.ofNat 32 k.val) p
  | 0, h => by
    rw [outsAt0_A m c ⟨0, h⟩ rfl, hA, imageSum_iblk, ← IS_img]
    show IS m c r _ 0 = _
    rw [show 8 * (0 / 8) = 0 from rfl, Finset.sum_Ico_succ_top (Nat.le_refl 0), Finset.Ico_self, Finset.sum_empty, zero_add]
  | n + 1, h => by
    by_cases h0 : (n + 1) % 8 = 0
    · rw [outsAt0_A m c ⟨n + 1, h⟩ h0, hA, imageSum_iblk, ← IS_img]
      show IS m c r _ (n + 1) = _
      rw [show 8 * ((n + 1) / 8) = n + 1 by omega, Finset.sum_Ico_succ_top (Nat.le_refl _), Finset.Ico_self, Finset.sum_empty, zero_add]
    · rw [outsAt0_B m c ⟨n + 1, h⟩ h0, hB, imageSum_iblk, ← IS_img]
      show outsAt0 (F := Ideal) m c n _ (ix3 (0 : Fin 1) r k) + IS m c r _ (n + 1) = _
      rw [outsAt_apply hA hB c r k n, show 8 * ((n + 1) / 8) = 8 * (n / 8) by omega,
        Finset.sum_Ico_succ_top (show 8 * (n / 8) ≤ n + 1 by omega)]

/-- The result array of the region: entry `(core, r, k)` is the sum of the image sums of the core's eight images. -/
def G0 (c : Dev nD) : S2x3x16.Idx → EReal := fun i =>
  ∑ p ∈ Finset.Ico (8 * (i 0).val) (8 * (i 0).val + 8),
    IS m c ⟨(i 1).val, (i 1).isLt⟩ (BitVec.ofNat 32 (i 2).val) p

/-- The same as contents of the result array's buffer. -/
abbrev G (c : Dev nD) : Buf (Elt Ideal) ((c : Thread nD τ).loc main_v0) := G0 m c

end Cert.KernelIdeal.Hist

end
-- ==== Proof.KArray.lean ====
/-
  From the output block to the result array of the region.

  The output block is written back at the points ≡ 7 (mod 8): point 7 writes row 0 and point 15 writes row 1 of the
  `2 × 3 × 16` array.  What such a point writes is, entry by entry, the function `G` of the accumulation read at the
  block's place in the array (row `t / 8`; a block coordinate is always index × size + the coordinate inside the
  block); and every entry of the array lies in the block of the writing point of its row.  So the array ends at `G`.
-/
import proofs.«118964_j16312285790284_2_alg».proof.Proof.KAcc
import Idealize.ShloMosaic.Lib.Pipeline.Value
import Idealize.ShloMosaic.Lib.ValueIdx

noncomputable section

namespace Cert.KernelIdeal.Hist

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ)

/-- WHAT A WRITING POINT WRITES BACK is its block of `G`. -/
theorem flushed_eq (hA : StepA) (hB : StepB) (c : Dev nD) (t : Fin cfg0.N) (hf : (cfg0.win 3).flush t = true) :
    (dats m 0 c).flushed 3 t = ((cfg0.win 3).blk t).view.read (Elt Ideal) (G m c) := by
  have h7 : t.val % 8 = 7 := (flush0_3 t).mp hf
  have hN : t.val < 16 := lt_of_lt_of_eq t.isLt N16
  obtain ⟨-, -, -, e0, e1, e2⟩ := idx_facts t
  show (cfg0.win 3).cut (grid0.coords t) ((dats m 0 c).after 3 t) = _
  rw [after0_3]
  funext y
  obtain ⟨r, k, rfl⟩ : ∃ (r : Fin 3) (k : Fin 16), y = ix3 (0 : Fin 1) r k :=
    ⟨⟨(y 1).val, (y 1).isLt⟩, ⟨(y 2).val, (y 2).isLt⟩, by
      funext a
      match a with
      | ⟨0, _⟩ => exact Fin.ext (by have hy0 : (y 0).val < 1 := (y 0).isLt; show (y 0).val = 0; omega)
      | ⟨1, _⟩ => rfl
      | ⟨2, _⟩ => rfl⟩
  show outsAt0 (F := Ideal) m c t.val t.isLt (ix3 (0 : Fin 1) r k) = G0 m c (((cfg0.win 3).blk t).view.emb (ix3 (0 : Fin 1) r k))
  rw [outsAt_apply m hA hB c r k t.val t.isLt]
  unfold G0
  have c0 : ((((cfg0.win 3).blk t).view.emb (ix3 (0 : Fin 1) r k)) 0).val = t.val / 8 := by
    show win0_3.index t (0 : Fin 3) * 1 + 1 * 0 = t.val / 8; omega
  have c1 : ((((cfg0.win 3).blk t).view.emb (ix3 (0 : Fin 1) r k)) 1).val = r.val := by
    show win0_3.index t (1 : Fin 3) * 3 + 1 * r.val = r.val; omega
  have c2 : ((((cfg0.win 3).blk t).view.emb (ix3 (0 : Fin 1) r k)) 2).val = k.val := by
    show win0_3.index t (2 : Fin 3) * 16 + 1 * k.val = k.val; omega
  have er : (⟨((((cfg0.win 3).blk t).view.emb (ix3 (0 : Fin 1) r k)) 1).val, ((((cfg0.win 3).blk t).view.emb (ix3 (0 : Fin 1) r k)) 1).isLt⟩ : Fin 3) = r :=
    Fin.ext c1
  rw [er, c0, c2, show t.val + 1 = 8 * (t.val / 8) + 8 by omega]

/-- An entry of the array is in point `t`'s block iff each coordinate is in the block's range on its axis. -/
theorem mem_blk (t : Fin cfg0.N) (i : S2x3x16.Idx) :
    i ∈ ((cfg0.win 3).blk t).view.set ↔ ∀ a : Fin 3, win0_3.index t a * S1x3x16.size a ≤ (i a).val ∧ (i a).val < win0_3.index t a * S1x3x16.size a + S1x3x16.size a := by
  show i ∈ ((View.whole main_v0).slice (win0_3.rect t)).set ↔ _
  rw [View.set_slice_whole, Rect.mem_set_unit]
  exact Iff.rfl

/-- Every entry of the array lies in the block of the last point of its row's core. -/
theorem cover (i : S2x3x16.Idx) : ∃ t : Fin cfg0.N, (cfg0.win 3).flush t = true ∧ i ∈ ((cfg0.win 3).blk t).view.set := by
  have h0 : (i 0).val < 2 := (i 0).isLt
  have h1 : (i 1).val < 3 := (i 1).isLt
  have h2 : (i 2).val < 16 := (i 2).isLt
  let t : Fin cfg0.N := ⟨8 * (i 0).val + 7, by rw [N16]; omega⟩
  have ht : t.val = 8 * (i 0).val + 7 := rfl
  obtain ⟨-, -, -, e0, e1, e2⟩ := idx_facts t
  refine ⟨t, (flush0_3 t).mpr (by omega), ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 3 ≤ (i 1).val ∧ (i 1).val < win0_3.index t (1 : Fin 3) * 3 + 3; omega
  | ⟨2, _⟩ => show win0_3.index t (2 : Fin 3) * 16 ≤ (i 2).val ∧ (i 2).val < win0_3.index t (2 : Fin 3) * 16 + 16; omega

/-- THE RESULT ARRAY of the region after the run is `G`. -/
theorem final (hA : StepA) (hB : StepB) (c : Dev nD) : (dats m 0 c).arrAt 3 cfg0.N = G m c :=
  (dats m 0 c).arrAt_eq_of_cover 3 (G m c) (fun t hf => flushed_eq m hA hB c t hf) cover

end Cert.KernelIdeal.Hist

end
-- ==== Proof.KRows.lean ====
/-
  The two cores' partial statistics added: the three 16-vectors the kernel's host lines hand to the tail.

  The host adds the two rows of the `2 × 3 × 16` result array from zero (`0 + A(0, r, k) + A(1, r, k)`) and cuts the
  `3 × 16` sum into its three rows.  At the array `G` of the accumulation, row `r` at bin `k` is the sum of the image sums
  of images 0 … 7 plus that of images 8 … 15, which is the sum over all sixteen images: the statistic `stat r k`.
-/
import proofs.«118964_j16312285790284_2_alg».proof.Proof.KAcc
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Hist

open Cert.KernelIdeal Cert.KernelIdeal.Gen
open Idealize.ShloMosaic Idealize.ShloMosaic.TcCoe Idealize.SL.Sem Idealize.ShloMosaic.ValueIdx
open scoped BigOperators

/-- The two cores' rows added, from zero. -/
def coreSum (A : FVec Ideal S2x3x16 .f32) : FVec Ideal S3x16 .f32 :=
  Host.reduceAdd A (constant (F := Ideal) S_ .f32 0x00000000#32) reducesTo_S2x3x16_S3x16_d0 h_S_

/-- Its three rows as 16-vectors: the counts, the first sums, the second sums. -/
def row0 (A : FVec Ideal S2x3x16 .f32) : FVec Ideal S16 .f32 :=
  shapeCast S16 (extractStridedSlice S1x16 ![0, 0] (coreSum A) slices_S3x16_S1x16_0_0) shapeCasts_S1x16_S16
def row1 (A : FVec Ideal S2x3x16 .f32) : FVec Ideal S16 .f32 :=
  shapeCast S16 (extractStridedSlice S1x16 ![1, 0] (coreSum A) slices_S3x16_S1x16_1_0) shapeCasts_S1x16_S16
def row2 (A : FVec Ideal S2x3x16 .f32) : FVec Ideal S16 .f32 :=
  shapeCast S16 (extractStridedSlice S1x16 ![2, 0] (coreSum A) slices_S3x16_S1x16_2_0) shapeCasts_S1x16_S16

/-- The sum over the cores at `(r, k)`: the two rows' entries added (the zero it starts from is the real zero). -/
theorem coreSum_apply (A : FVec Ideal S2x3x16 .f32) (r : Fin 3) (k : Fin 16) :
    coreSum A (ix2 r k) = A (ix3 (0 : Fin 2) r k) + A (ix3 (1 : Fin 2) r k) := by
  have hR : S2x3x16.Reduces [0] S3x16 := by decide
  unfold coreSum
  rw [hostReduceAdd_apply, Ideal.hostReduceAdd_single reducesTo_S2x3x16_S3x16_d0 hR, constant_apply, Ideal.ofBits_zero_f32, zero_add]
  show ∑ j : Fin 2, A (hR.lift (ix2 r k) j) = _
  rw [Fin.sum_univ_two]
  have l0 : hR.lift (ix2 r k) (0 : Fin 2) = ix3 (0 : Fin 2) r k := funext fun a => Fin.ext (by
    match a with
    | ⟨0, _⟩ => rfl
    | ⟨1, _⟩ => rfl
    | ⟨2, _⟩ => rfl)
  have l1 : hR.lift (ix2 r k) (1 : Fin 2) = ix3 (1 : Fin 2) r k := funext fun a => Fin.ext (by
    match a with
    | ⟨0, _⟩ => rfl
    | ⟨1, _⟩ => rfl
    | ⟨2, _⟩ => rfl)
  rw [l0, l1]

theorem row0_apply (A : FVec Ideal S2x3x16 .f32) (k : Fin 16) :
    row0 A (ix1 k) = A (ix3 (0 : Fin 2) (0 : Fin 3) k) + A (ix3 (1 : Fin 2) (0 : Fin 3) k) := by
  unfold row0
  rw [shapeCast_1a_a_apply, slice2_axis0_apply 0 _ _ (0 : Fin 1) k (0 : Fin 3) rfl, coreSum_apply]
theorem row1_apply (A : FVec Ideal S2x3x16 .f32) (k : Fin 16) :
    row1 A (ix1 k) = A (ix3 (0 : Fin 2) (1 : Fin 3) k) + A (ix3 (1 : Fin 2) (1 : Fin 3) k) := by
  unfold row1
  rw [shapeCast_1a_a_apply, slice2_axis0_apply 1 _ _ (0 : Fin 1) k (1 : Fin 3) rfl, coreSum_apply]
theorem row2_apply (A : FVec Ideal S2x3x16 .f32) (k : Fin 16) :
    row2 A (ix1 k) = A (ix3 (0 : Fin 2) (2 : Fin 3) k) + A (ix3 (1 : Fin 2) (2 : Fin 3) k) := by
  unfold row2
  rw [shapeCast_1a_a_apply, slice2_axis0_apply 2 _ _ (0 : Fin 1) k (2 : Fin 3) rfl, coreSum_apply]

variable (m : (ℓ : Loc nD τ sig) → Buf (Elt Ideal) ℓ)

/-- The two cores' entries of `G` add up to the statistic: images 0 … 7 and 8 … 15 are all sixteen. -/
theorem G_cores (c : Dev nD) (r : Fin 3) (k : Fin 16) :
    G0 m c (ix3 (0 : Fin 2) r k) + G0 m c (ix3 (1 : Fin 2) r k) = Cert.Hist.stat (X0 m c) (X1 m c) (X2 m c) r k := by
  have g0 : G0 m c (ix3 (0 : Fin 2) r k) = ∑ p ∈ Finset.Ico 0 8, IS m c r (BitVec.ofNat 32 k.val) p := rfl
  have g1 : G0 m c (ix3 (1 : Fin 2) r k) = ∑ p ∈ Finset.Ico 8 16, IS m c r (BitVec.ofNat 32 k.val) p := rfl
  rw [g0, g1, Finset.sum_Ico_consecutive _ (by norm_num : (0 : ℕ) ≤ 8) (by norm_num : (8 : ℕ) ≤ 16), ← Finset.range_eq_Ico,
    ← Fin.sum_univ_eq_sum_range (fun p => IS m c r (BitVec.ofNat 32 k.val) p) 16]
  unfold Cert.Hist.stat
  refine Finset.sum_congr rfl fun b _ => ?_
  unfold IS
  rw [dif_pos b.isLt]

/-- So the three rows of the cores' sum of `G` are the specification's three statistic vectors. -/
theorem row0_G (c : Dev nD) : row0 (G m c) = Cert.Hist.statVec (X0 m c) (X1 m c) (X2 m c) 0 := by
  funext i
  obtain ⟨k, rfl⟩ : ∃ k : Fin 16, i = ix1 k := ⟨i 0, eq_ix1 i⟩
  rw [row0_apply]
  exact G_cores m c 0 k
theorem row1_G (c : Dev nD) : row1 (G m c) = Cert.Hist.statVec (X0 m c) (X1 m c) (X2 m c) 1 := by
  funext i
  obtain ⟨k, rfl⟩ : ∃ k : Fin 16, i = ix1 k := ⟨i 0, eq_ix1 i⟩
  rw [row1_apply]
  exact G_cores m c 1 k
theorem row2_G (c : Dev nD) : row2 (G m c) = Cert.Hist.statVec (X0 m c) (X1 m c) (X2 m c) 2 := by
  funext i
  obtain ⟨k, rfl⟩ : ∃ k : Fin 16, i = ix1 k := ⟨i 0, eq_ix1 i⟩
  rw [row2_apply]
  exact G_cores m c 2 k

end Cert.KernelIdeal.Hist

end
-- ==== Proof.KTail.lean ====
/-
  The kernel program's result: its host lines after the region, applied to the region's result array.

  After the region the host adds the two cores' rows of the `2 × 3 × 16` array, cuts the sum into the count, first-sum and
  second-sum vectors, and applies the scalar tail to them (the comparison, the two quotients, the absolute difference,
  the selection, the sum over the bins and the division by sixteen).  Read over the array `G` of the accumulation, the
  three vectors are the specification's statistic vectors, so the program's result is the specification's tail of them.
-/
import proofs.«118964_j16312285790284_2_alg».proof.Proof.KArray
import proofs.«118964_j16312285790284_2_alg».proof.Proof.KRows
import Idealize.ShloMosaic.Lib.Pipeline.Value
import Idealize.ShloMosaic.Lib.StableHlo.Run
import Idealize.ShloMosaic.Lib.Tactic
import Idealize.ShloMosaic.Lib.ValueIdx

noncomputable section

namespace Cert.KernelIdeal.Hist

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-- The result array as the host lines after the region find it is `G`. -/
theorem arr_eq (hA : StepA) (hB : StepB) (c : Dev nD) :
    Pipeline.withArrays (cfgs 0).spec c (V0 m c) (fun w => (dats m 0 c).arrAt w (cfgs 0).N) (Proc.devRef .tc main_v0) = G m c :=
  (Pipeline.withArrays_arr spec0 launch0.win.arr_inj c (V0 m c) (fun w => (dats m 0 c).arrAt w (cfgs 0).N) 3).trans (final m hA hB c)

set_option maxHeartbeats 4000000 in
/-- The host lines after the region compute the tail of the three rows of the cores' sum of `G`. -/
theorem tail_value (hA : StepA) (hB : StepB) (c : Dev nD) :
    Pipeline.afterTail₀ cfgs (dats m) 0 (V0 m) [hostOps1, hostOps1_1, hostOps1_2] c main_v18
      = Cert.Hist.tail bcast_S_S16 reducesTo_S16_S_d0 h_S_ (row0 (G m c)) (row1 (G m c)) (row2 (G m c)) := by
  unfold Pipeline.afterTail₀
  simp only [hostOps1, hostOps1_1, hostOps1_2, List.flatten_cons, List.flatten_nil, List.append_nil, List.cons_append, List.nil_append]
  after_results_simp
  dsimp only [StableHlo.TRef.toBuf, StableHlo.TRef.ofBuf]
  rw [arr_eq m hA hB c]
  unfold Cert.Hist.tail row0 row1 row2 coreSum
  rfl

/-- The result buffer is no window's array and is not scoped: the frame run states its final contents. -/
theorem v18_rest : main_v18 ∈ Pipeline.restRefs sig (cfgs 0).spec :=
  Pipeline.mem_restRefs_of main_v18 rfl (fun w => by fin_cases w <;> decide)

/-- THE KERNEL PROGRAM'S RUN, READ: the result is the specification's tail of the three statistic vectors of the
    argument arrays, and the arguments are unchanged. -/
theorem run (hA : StepA) (hB : StepB) :
    θ_run defs (onTc (τ := τ) (main (F := Ideal))) ⟨m, fun _ => 0, ρ⟩ (fun r => ∀ c : Dev nD,
      r.2.mem ((c.tc : Thread nD τ).loc main_v18)
          = Cert.Hist.tail bcast_S_S16 reducesTo_S16_S_d0 h_S_ (Cert.Hist.statVec (X0 m c) (X1 m c) (X2 m c) 0)
              (Cert.Hist.statVec (X0 m c) (X1 m c) (X2 m c) 1) (Cert.Hist.statVec (X0 m c) (X1 m c) (X2 m c) 2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_v18 v18_rest).trans ((tail_value m hA hB c).trans (by rw [row0_G, row1_G, row2_G])),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).1 2).trans (((dats m 0 c).arrAt_in 2 rfl _).trans ((A_eq m c 2).trans (V_main_arg2 m c)))⟩)
    (run_main m ρ)

end Cert.KernelIdeal.Hist

end
-- ==== Proof.Assemble.lean ====
/-
  The five claims from the two programs' runs.

  The kernel program's run (at the word-level instance and at the ideal one) is the generated frame run; the
  reference's is its run read back.  At the ideal instance the kernel program ends at the specification's tail of the
  three statistic vectors of its argument arrays (the accumulation over the grid and the host lines after the region),
  and the reference ends at the same tail of the same vectors of its own argument arrays (its three segment sums are
  the same sums over all pixels); the argument arrays agree, so the results are equal.  The idealization rewrote no
  operation, so there is nothing to preserve.  All of it rests on two facts about one run of the kernel body, taken
  here as hypotheses: what the body leaves in the output block at a first step and at a later step.
-/
import proofs.«118964_j16312285790284_2_alg».proof.Defs
import proofs.«118964_j16312285790284_2_alg».proof.Proof.Gen.Kernel
import proofs.«118964_j16312285790284_2_alg».proof.Proof.Gen.Kernel.Frame
import proofs.«118964_j16312285790284_2_alg».proof.Proof.Gen.KernelIdeal
import proofs.«118964_j16312285790284_2_alg».proof.Proof.Gen.KernelIdeal.Frame
import proofs.«118964_j16312285790284_2_alg».proof.Proof.Gen.ReferenceIdeal
import proofs.«118964_j16312285790284_2_alg».proof.Proof.Gen.Pre_finite_inputs
import proofs.«118964_j16312285790284_2_alg».proof.Proof.RefRun
import proofs.«118964_j16312285790284_2_alg».proof.Proof.RefRead
import proofs.«118964_j16312285790284_2_alg».proof.Proof.RefStats
import proofs.«118964_j16312285790284_2_alg».proof.Proof.KTail

noncomputable section

namespace Cert.Proof.Hist

open Idealize.ShloMosaic Idealize.ShloMosaic.TcCoe Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

/-- Both programs end at the specification's tail of the statistic vectors of arguments that agree. -/
theorem algebraic (hA : Cert.KernelIdeal.Hist.StepA) (hB : Cert.KernelIdeal.Hist.StepB) :
    @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Hist.run m ρ hA hB, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v76_eq, Cert.Hist.Ref.result_eq, (hagree c).1, (hagree c).2.1, (hagree c).2.2]

theorem claim_of (hA : Cert.KernelIdeal.Hist.StepA) (hB : Cert.KernelIdeal.Hist.StepB) : Cert.Claim :=
  ⟨Cert.Kernel.Gen.facts, Cert.KernelIdeal.Gen.facts, Cert.ReferenceIdeal.Gen.facts, Cert.Pre_finite_inputs.Gen.facts,
    frame_k, frame_ki, frame_ri, trivial, algebraic hA hB⟩

end Cert.Proof.Hist

end
-- ==== Proof.KStep.lean ====
/-
  One run of the histogram kernel's body, read as a value.

  The body loads one image of each of the three inputs, forms the three luma planes, the bin word of every pixel of
  the third image, and for each of the sixteen bins the indicator plane of the bin and the three sums over the image
  of the indicator, of the indicator times the first luma and of the indicator times the second luma (each a sum
  over the rows, then over the columns).  It lays the 48 sums out as a 3 × 16 block and adds that block to what the
  output block held (the zero block at the first step of a core).

  `stepV xo x0 x1 x2` is that update written as one vector term, generic in the float instance; what either
  case of the body leaves in the output block is this term (`out0_A_3_eq`, `out0_B_3_eq`).  Read at the extended reals at row `r` and bin
  `k` the term is the old entry plus `∑ w, ∑ h` of the specification's summand (`stepV_apply`), which is
  `Cert.Hist.imageSum`.
-/
import proofs.«118964_j16312285790284_2_alg».proof.Proof.Gen.KernelIdeal.Frame
import proofs.«118964_j16312285790284_2_alg».proof.Proof.Spec
import Idealize.ShloMosaic.Lib.Pipeline.Value
import Idealize.ShloMosaic.Lib.Tactic

noncomputable section

open Idealize.ShloMosaic Idealize.ShloMosaic.TcCoe Idealize.SL.Sem Idealize.ShloMosaic.ValueIdx
open scoped BigOperators

namespace Cert.KernelIdeal.Hist
open Cert.KernelIdeal Cert.KernelIdeal.Gen

variable {F : FTy → Type} [FloatOps F]

/-! ## The update as one vector term -/

/-- The luma plane of an image block: `(w0·R + w1·G) + w2·B`, each channel cut out of the block as a 512 × 512 plane. -/
def lumaV (x : Vec F S1x3x512x512 .f32) : FVec F S512x512 .f32 :=
  addf (addf
      (mulf (broadcast S512x512 (Scalar.ofBits .f32 0x3E991687#32 : F .f32))
        (shapeCast S512x512 (extractStridedSlice S1x512x512 ![0, 0, 0] (shapeCast S3x512x512 x shapeCasts_S1x3x512x512_S3x512x512) slices_S3x512x512_o0_0_0_S1x512x512) shapeCasts_S1x512x512_S512x512))
      (mulf (broadcast S512x512 (Scalar.ofBits .f32 0x3F1645A2#32 : F .f32))
        (shapeCast S512x512 (extractStridedSlice S1x512x512 ![1, 0, 0] (shapeCast S3x512x512 x shapeCasts_S1x3x512x512_S3x512x512) slices_S3x512x512_o1_0_0_S1x512x512) shapeCasts_S1x512x512_S512x512)))
    (mulf (broadcast S512x512 (Scalar.ofBits .f32 0x3DE978D5#32 : F .f32))
      (shapeCast S512x512 (extractStridedSlice S1x512x512 ![2, 0, 0] (shapeCast S3x512x512 x shapeCasts_S1x3x512x512_S3x512x512) slices_S3x512x512_o2_0_0_S1x512x512) shapeCasts_S1x512x512_S512x512))

/-- The bin word of every pixel of a luma plane: `⌊16·luma⌋` as a word, limited to 0 … 15, and 16 where the luma is
    at least one. -/
def binsV (il : FVec F S512x512 .f32) : IVec S512x512 32 :=
  select (cmpf .oge il (broadcast S512x512 (Scalar.ofBits .f32 0x3F800000#32 : F .f32))) (broadcast S512x512 16#32)
    (minsi (broadcast S512x512 15#32) (maxsi (broadcast S512x512 0#32)
      (fptosi 32 (floor (mulf il (broadcast S512x512 (Scalar.ofBits .f32 0x41800000#32 : F .f32)))))))

/-- The indicator plane of bin word `b`, as floats. -/
def maskV (bins : IVec S512x512 32) (b : BitVec 32) : FVec F S512x512 .f32 :=
  sitofp .f32 (extui 32 (cmpi .eq bins (broadcast S512x512 b)) natLt_1_32)

/-- The sum of a plane: over the rows, then over the columns, as a 1 × 1 block. -/
def red2 (z : FVec F S512x512 .f32) : FVec F S1x1 .f32 :=
  shapeCast S1x1 (multiReduction .add [1] S1
    (shapeCast S1x512 (multiReduction .add [0] S512 z 0x00000000#32 reduces_S512x512_S512 (.inl rfl) rfl) shapeCasts_S512_S1x512)
    0x00000000#32 reduces_S1x512_S1 (.inl rfl) rfl) shapeCasts_S1_S1x1

/-- Bin `b`'s pixel count. -/
def cntV (bins : IVec S512x512 32) (b : BitVec 32) : FVec F S1x1 .f32 := red2 (maskV bins b)

/-- Bin `b`'s sum of a luma plane. -/
def sumV (bins : IVec S512x512 32) (l : FVec F S512x512 .f32) (b : BitVec 32) : FVec F S1x1 .f32 := red2 (mulf (maskV bins b) l)

/-- The sixteen counts as a row. -/
def cntRow (bins : IVec S512x512 32) : FVec F S1x16 .f32 :=
  concatenate S1x16 1 [⟨S1x1, cntV bins 0#32⟩, ⟨S1x1, cntV bins 1#32⟩, ⟨S1x1, cntV bins 2#32⟩, ⟨S1x1, cntV bins 3#32⟩,
    ⟨S1x1, cntV bins 4#32⟩, ⟨S1x1, cntV bins 5#32⟩, ⟨S1x1, cntV bins 6#32⟩, ⟨S1x1, cntV bins 7#32⟩,
    ⟨S1x1, cntV bins 8#32⟩, ⟨S1x1, cntV bins 9#32⟩, ⟨S1x1, cntV bins 10#32⟩, ⟨S1x1, cntV bins 11#32⟩,
    ⟨S1x1, cntV bins 12#32⟩, ⟨S1x1, cntV bins 13#32⟩, ⟨S1x1, cntV bins 14#32⟩, ⟨S1x1, cntV bins 15#32⟩]
    concatenates_S1x1_S1x1_S1x1_S1x1_S1x1_S1x1_S1x1_S1x1_S1x1_S1x1_S1x1_S1x1_S1x1_S1x1_S1x1_S1x1_S1x16_d1

/-- The sixteen sums of a luma plane as a row. -/
def sumRow (bins : IVec S512x512 32) (l : FVec F S512x512 .f32) : FVec F S1x16 .f32 :=
  concatenate S1x16 1 [⟨S1x1, sumV bins l 0#32⟩, ⟨S1x1, sumV bins l 1#32⟩, ⟨S1x1, sumV bins l 2#32⟩, ⟨S1x1, sumV bins l 3#32⟩,
    ⟨S1x1, sumV bins l 4#32⟩, ⟨S1x1, sumV bins l 5#32⟩, ⟨S1x1, sumV bins l 6#32⟩, ⟨S1x1, sumV bins l 7#32⟩,
    ⟨S1x1, sumV bins l 8#32⟩, ⟨S1x1, sumV bins l 9#32⟩, ⟨S1x1, sumV bins l 10#32⟩, ⟨S1x1, sumV bins l 11#32⟩,
    ⟨S1x1, sumV bins l 12#32⟩, ⟨S1x1, sumV bins l 13#32⟩, ⟨S1x1, sumV bins l 14#32⟩, ⟨S1x1, sumV bins l 15#32⟩]
    concatenates_S1x1_S1x1_S1x1_S1x1_S1x1_S1x1_S1x1_S1x1_S1x1_S1x1_S1x1_S1x1_S1x1_S1x1_S1x1_S1x1_S1x16_d1

/-- The 3 × 16 block of one image's statistics: counts, sums of the first luma, sums of the second luma, the bins
    chosen by the third image. -/
def updV (x0 x1 x2 : Vec F S1x3x512x512 .f32) : FVec F S3x16 .f32 :=
  concatenate S3x16 0 [⟨S1x16, cntRow (binsV (lumaV x2))⟩, ⟨S1x16, sumRow (binsV (lumaV x2)) (lumaV x0)⟩,
    ⟨S1x16, sumRow (binsV (lumaV x2)) (lumaV x1)⟩] concatenates_S1x16_S1x16_S1x16_S3x16_d0

/-- What the body leaves in the output block that held `xo`: `xo` plus the image's statistics. -/
def stepV (xo : Vec F S1x3x16 .f32) (x0 x1 x2 : Vec F S1x3x512x512 .f32) : FVec F S1x3x16 .f32 :=
  shapeCast S1x3x16 (addf (shapeCast S3x16 xo shapeCasts_S1x3x16_S3x16) (updV x0 x1 x2)) shapeCasts_S3x16_S1x3x16

/-! ## What either case of the body leaves in the output block is this term -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The two luma payloads and the bin payload are the planes above. -/
theorem pay6_eq (x : Vec F S1x3x512x512 .f32) : k0_pay6 x = lumaV x := rfl
theorem pay7_eq (x : Vec F S1x3x512x512 .f32) : k0_pay7 x = lumaV x := rfl
theorem pay8_eq (x : Vec F S1x3x512x512 .f32) : k0_pay8 (k0_pay5 x) = binsV (lumaV x) := rfl

/-- The last payload — the three rows stacked and added to the loaded block — over ANY 48 pieces that are the 48
    sums is the update term: the pieces enter only through the three concatenations. -/
theorem assemble (xo : Vec F S1x3x16 .f32) (x0 x1 x2 : Vec F S1x3x512x512 .f32)
    (a0 a1 a2 a3 a4 a5 a6 a7 a8 a9 a10 a11 a12 a13 a14 a15 : FVec F S1x1 .f32)
    (b0 b1 b2 b3 b4 b5 b6 b7 b8 b9 b10 b11 b12 b13 b14 : FVec F S1x1 .f32) (p : FVec F S512x512 .f32)
    (c0 c1 c2 c3 c4 c5 c6 c7 c8 c9 c10 c11 c12 c13 c14 : FVec F S1x1 .f32) (q : FVec F S512x512 .f32)
    (ha0 : a0 = cntV (binsV (lumaV x2)) 0#32)
    (ha1 : a1 = cntV (binsV (lumaV x2)) 1#32)
    (ha2 : a2 = cntV (binsV (lumaV x2)) 2#32)
    (ha3 : a3 = cntV (binsV (lumaV x2)) 3#32)
    (ha4 : a4 = cntV (binsV (lumaV x2)) 4#32)
    (ha5 : a5 = cntV (binsV (lumaV x2)) 5#32)
    (ha6 : a6 = cntV (binsV (lumaV x2)) 6#32)
    (ha7 : a7 = cntV (binsV (lumaV x2)) 7#32)
    (ha8 : a8 = cntV (binsV (lumaV x2)) 8#32)
    (ha9 : a9 = cntV (binsV (lumaV x2)) 9#32)
    (ha10 : a10 = cntV (binsV (lumaV x2)) 10#32)
    (ha11 : a11 = cntV (binsV (lumaV x2)) 11#32)
    (ha12 : a12 = cntV (binsV (lumaV x2)) 12#32)
    (ha13 : a13 = cntV (binsV (lumaV x2)) 13#32)
    (ha14 : a14 = cntV (binsV (lumaV x2)) 14#32)
    (ha15 : a15 = cntV (binsV (lumaV x2)) 15#32)
    (hb0 : b0 = sumV (binsV (lumaV x2)) (lumaV x0) 0#32)
    (hb1 : b1 = sumV (binsV (lumaV x2)) (lumaV x0) 1#32)
    (hb2 : b2 = sumV (binsV (lumaV x2)) (lumaV x0) 2#32)
    (hb3 : b3 = sumV (binsV (lumaV x2)) (lumaV x0) 3#32)
    (hb4 : b4 = sumV (binsV (lumaV x2)) (lumaV x0) 4#32)
    (hb5 : b5 = sumV (binsV (lumaV x2)) (lumaV x0) 5#32)
    (hb6 : b6 = sumV (binsV (lumaV x2)) (lumaV x0) 6#32)
    (hb7 : b7 = sumV (binsV (lumaV x2)) (lumaV x0) 7#32)
    (hb8 : b8 = sumV (binsV (lumaV x2)) (lumaV x0) 8#32)
    (hb9 : b9 = sumV (binsV (lumaV x2)) (lumaV x0) 9#32)
    (hb10 : b10 = sumV (binsV (lumaV x2)) (lumaV x0) 10#32)
    (hb11 : b11 = sumV (binsV (lumaV x2)) (lumaV x0) 11#32)
    (hb12 : b12 = sumV (binsV (lumaV x2)) (lumaV x0) 12#32)
    (hb13 : b13 = sumV (binsV (lumaV x2)) (lumaV x0) 13#32)
    (hb14 : b14 = sumV (binsV (lumaV x2)) (lumaV x0) 14#32)
    (hp : p = mulf (maskV (binsV (lumaV x2)) 15#32) (lumaV x0))
    (hc0 : c0 = sumV (binsV (lumaV x2)) (lumaV x1) 0#32)
    (hc1 : c1 = sumV (binsV (lumaV x2)) (lumaV x1) 1#32)
    (hc2 : c2 = sumV (binsV (lumaV x2)) (lumaV x1) 2#32)
    (hc3 : c3 = sumV (binsV (lumaV x2)) (lumaV x1) 3#32)
    (hc4 : c4 = sumV (binsV (lumaV x2)) (lumaV x1) 4#32)
    (hc5 : c5 = sumV (binsV (lumaV x2)) (lumaV x1) 5#32)
    (hc6 : c6 = sumV (binsV (lumaV x2)) (lumaV x1) 6#32)
    (hc7 : c7 = sumV (binsV (lumaV x2)) (lumaV x1) 7#32)
    (hc8 : c8 = sumV (binsV (lumaV x2)) (lumaV x1) 8#32)
    (hc9 : c9 = sumV (binsV (lumaV x2)) (lumaV x1) 9#32)
    (hc10 : c10 = sumV (binsV (lumaV x2)) (lumaV x1) 10#32)
    (hc11 : c11 = sumV (binsV (lumaV x2)) (lumaV x1) 11#32)
    (hc12 : c12 = sumV (binsV (lumaV x2)) (lumaV x1) 12#32)
    (hc13 : c13 = sumV (binsV (lumaV x2)) (lumaV x1) 13#32)
    (hc14 : c14 = sumV (binsV (lumaV x2)) (lumaV x1) 14#32)
    (hq : q = mulf (maskV (binsV (lumaV x2)) 15#32) (lumaV x1)) :
    k0_pay3
      (concatenate S1x16 1 [⟨S1x1, a0⟩, ⟨S1x1, a1⟩, ⟨S1x1, a2⟩, ⟨S1x1, a3⟩, ⟨S1x1, a4⟩, ⟨S1x1, a5⟩, ⟨S1x1, a6⟩, ⟨S1x1, a7⟩, ⟨S1x1, a8⟩, ⟨S1x1, a9⟩, ⟨S1x1, a10⟩, ⟨S1x1, a11⟩, ⟨S1x1, a12⟩, ⟨S1x1, a13⟩, ⟨S1x1, a14⟩, ⟨S1x1, a15⟩] concatenates_S1x1_S1x1_S1x1_S1x1_S1x1_S1x1_S1x1_S1x1_S1x1_S1x1_S1x1_S1x1_S1x1_S1x1_S1x1_S1x1_S1x16_d1)
      (k0_pay1 b0 b1 b2 b3 b4 b5 b6 b7 b8 b9 b10 b11 b12 b13 b14 p)
      (k0_pay2 c0 c1 c2 c3 c4 c5 c6 c7 c8 c9 c10 c11 c12 c13 c14 q) xo
      = stepV xo x0 x1 x2 := by
  subst ha0 ha1 ha2 ha3 ha4 ha5 ha6 ha7 ha8 ha9 ha10 ha11 ha12 ha13 ha14 ha15
  subst hb0 hb1 hb2 hb3 hb4 hb5 hb6 hb7 hb8 hb9 hb10 hb11 hb12 hb13 hb14 hp
  subst hc0 hc1 hc2 hc3 hc4 hc5 hc6 hc7 hc8 hc9 hc10 hc11 hc12 hc13 hc14 hq
  rfl

/-- The block the first step of a core stores before it accumulates: zeros. -/
theorem pay4_eq : (k0_pay4 : FVec F S1x3x16 .f32) = broadcast S1x3x16 (Scalar.ofBits .f32 0x00000000#32 : F .f32) := rfl

set_option maxHeartbeats 1000000 in
/-- A step other than a core's first: the one covering store's payload, its loads reading the whole buffers. -/
theorem out0_B_3_eq (c : Dev nD) (i : grid0.Coords) (arg2 : Memref sig .tc .vmem S1x3x512x512 .f32) (harg2 : arg2.IsWhole) (arg3 : Memref sig .tc .vmem S1x3x512x512 .f32) (harg3 : arg3.IsWhole) (arg4 : Memref sig .tc .vmem S1x3x512x512 .f32) (harg4 : arg4.IsWhole) (arg5 : Memref sig .tc .vmem S1x3x16 .f32) (harg5 : arg5.IsWhole) (hc0 : ¬cond0_0 i)
    (x0 : Vec F S1x3x512x512 .f32) (x1 : Vec F S1x3x512x512 .f32) (x2 : Vec F S1x3x512x512 .f32) (xo3 : Vec F S1x3x16 .f32) :
    out0_B_3 c i arg2 harg2 arg3 harg3 arg4 harg4 arg5 harg5 hc0 x0 x1 x2 xo3 = stepV xo3 x0 x1 x2 := by
  unfold out0_B_3
  rw [View.read_writes_eq_canon _ _ _ (cover0_B_3 c i arg2 harg2 arg3 harg3 arg4 harg4 arg5 harg5 hc0 x0 x1 x2 xo3)]
  unfold kernelRun0_B
  dsimp only
  sl_unfold_words
  rw [View.canon_unit_zero hz3]
  simp only [View.readAt_eq_ld, harg2.read_unread, harg3.read_unread, harg4.read_unread, harg5.read_unread,
    View.ld_unit_zero (S := S1x3x512x512) hz4, View.ld_unit_zero (S := S1x3x16) hz3, pay6_eq, pay7_eq, pay8_eq]
  apply assemble
  all_goals
    try simp only [View.readAt_eq_ld, harg4.read_unread, View.ld_unit_zero (S := S1x3x512x512) hz4, pay8_eq]
  all_goals rfl

set_option maxHeartbeats 1000000 in
/-- A core's first step: the body stores the zero block, loads it back, and stores the sum over it. -/
theorem out0_A_3_eq (c : Dev nD) (i : grid0.Coords) (arg2 : Memref sig .tc .vmem S1x3x512x512 .f32) (harg2 : arg2.IsWhole) (arg3 : Memref sig .tc .vmem S1x3x512x512 .f32) (harg3 : arg3.IsWhole) (arg4 : Memref sig .tc .vmem S1x3x512x512 .f32) (harg4 : arg4.IsWhole) (arg5 : Memref sig .tc .vmem S1x3x16 .f32) (harg5 : arg5.IsWhole) (hc0 : cond0_0 i)
    (x0 : Vec F S1x3x512x512 .f32) (x1 : Vec F S1x3x512x512 .f32) (x2 : Vec F S1x3x512x512 .f32) :
    out0_A_3 c i arg2 harg2 arg3 harg3 arg4 harg4 arg5 harg5 hc0 x0 x1 x2 = stepV (broadcast S1x3x16 (Scalar.ofBits .f32 0x00000000#32 : F .f32)) x0 x1 x2 := by
  unfold out0_A_3
  rw [View.read_writes_eq_canon _ _ _ (cover0_A_3 c i arg2 harg2 arg3 harg3 arg4 harg4 arg5 harg5 hc0 x0 x1 x2)]
  unfold kernelRun0_A
  dsimp only
  sl_unfold_words
  rw [View.canon_cons_unit_zero (S := S1x3x16) hz3, View.readCov_unit_zero (S := S1x3x16) _ hz3]
  simp only [View.readAt_eq_ld, harg2.read_unread, harg3.read_unread, harg4.read_unread,
    View.ld_unit_zero (S := S1x3x512x512) hz4, pay4_eq, pay6_eq, pay7_eq, pay8_eq]
  apply assemble
  all_goals
    try simp only [View.readAt_eq_ld, harg4.read_unread, View.ld_unit_zero (S := S1x3x512x512) hz4, pay8_eq]
  all_goals rfl

/-! ## The term read at the extended reals -/

/-- Channel `ch` of an image block, cut out as a plane, read at a pixel. -/
theorem plane_apply {α : Type} (x : S1x3x512x512.Idx → α) (off : Fin 3 → Nat) (ch : Fin 3)
    (hoff : off = ![ch.val, 0, 0]) (hs : S3x512x512.Slices off S1x512x512) (h w : Fin 512) :
    shapeCast S512x512 (extractStridedSlice S1x512x512 off (shapeCast S3x512x512 x shapeCasts_S1x3x512x512_S3x512x512) hs)
      shapeCasts_S1x512x512_S512x512 (ix2 h w) = x (ix4 0 ch h w) := by
  subst hoff
  refine (shapeCast_apply _ _ (ix2 h w) (ix3 (0 : Fin 1) h w) ?_).trans ?_
  · rw [Shape.rowMajor_val_three, Shape.rowMajor_val_two]
    show ((0 : Nat) * 512 + h.val) * 512 + w.val = h.val * 512 + w.val
    omega
  refine (extractStridedSlice_apply _ _ hs (ix3 (0 : Fin 1) h w) (ix3 ch h w) ?_).trans ?_
  · intro a
    match a with
    | ⟨0, _⟩ => show ch.val = ch.val + 0; omega
    | ⟨1, _⟩ => show h.val = 0 + h.val; omega
    | ⟨2, _⟩ => show w.val = 0 + w.val; omega
  refine shapeCast_apply _ _ (ix3 ch h w) (ix4 (0 : Fin 1) ch h w) ?_
  rw [Shape.rowMajor_val_four, Shape.rowMajor_val_three]
  show (((0 : Nat) * 3 + ch.val) * 512 + h.val) * 512 + w.val = (ch.val * 512 + h.val) * 512 + w.val
  omega

/-- The luma plane at a pixel is the specification's luma. -/
theorem lumaV_apply (x : Vec Ideal S1x3x512x512 .f32) (h w : Fin 512) :
    lumaV x (ix2 h w) = Cert.Hist.luma (n := 1) x 0 h w := by
  unfold lumaV Cert.Hist.luma Cert.Hist.w0 Cert.Hist.w1 Cert.Hist.w2
  have e0 := plane_apply x ![0, 0, 0] 0 rfl slices_S3x512x512_o0_0_0_S1x512x512 h w
  have e1 := plane_apply x ![1, 0, 0] 1 rfl slices_S3x512x512_o1_0_0_S1x512x512 h w
  have e2 := plane_apply x ![2, 0, 0] 2 rfl slices_S3x512x512_o2_0_0_S1x512x512 h w
  rw [addf_apply, addf_apply, mulf_apply, mulf_apply, mulf_apply, e0, e1, e2]
  rfl

/-- The bin plane at a pixel is the specification's bin word of the luma there. -/
theorem binsV_apply (il : FVec Ideal S512x512 .f32) (j : S512x512.Idx) :
    binsV il j = Cert.Hist.binWord (il j) := rfl

/-- The indicator plane at a pixel is the specification's indicator. -/
theorem maskV_apply (bins : IVec S512x512 32) (b : BitVec 32) (j : S512x512.Idx) :
    maskV (F := Ideal) bins b j = Cert.Hist.ind (bins j) b :=
  Cert.Hist.sitofp_cmpi_eq (bins j) b

/-- The sum of a plane is the sum over the columns of the sums over the rows. -/
theorem red2_apply (z : FVec Ideal S512x512 .f32) (j : S1x1.Idx) :
    red2 z j = ∑ w : Fin 512, ∑ h : Fin 512, z (ix2 h w) := by
  unfold red2
  refine (shapeCast_apply _ _ j (ix1 (0 : Fin 1)) ?_).trans ?_
  · rw [Shape.rowMajor_val_one, Shape.rowMajor_val_two]
    have h0 : (j 0).val < 1 := (j 0).isLt
    have h1 : (j 1).val < 1 := (j 1).isLt
    show (0 : Nat) = (j 0).val * 1 + (j 1).val
    omega
  refine (Ideal.multiReduction_add_single _ 0x00000000#32 reduces_S1x512_S1 (.inl rfl) rfl (ix1 (0 : Fin 1))).trans ?_
  show ∑ w : Fin 512, _ = _
  refine Finset.sum_congr rfl fun w _ => ?_
  refine (shapeCast_apply _ _ _ (ix1 w) ?_).trans ?_
  · rw [Shape.rowMajor_val_one, Shape.rowMajor_val_two]
    show w.val = (0 : Nat) * 512 + w.val
    omega
  refine (Ideal.multiReduction_add_single z 0x00000000#32 reduces_S512x512_S512 (.inl rfl) rfl (ix1 w)).trans ?_
  show ∑ h : Fin 512, _ = _
  refine Finset.sum_congr rfl fun h _ => ?_
  refine congrArg z (funext fun a => ?_)
  match a with
  | ⟨0, _⟩ => rfl
  | ⟨1, _⟩ => rfl

/-- Bin `b`'s count is the image's share of statistic 0. -/
theorem cntV_apply (x0 x1 x2 : Vec Ideal S1x3x512x512 .f32) (b : BitVec 32) (j : S1x1.Idx) :
    cntV (F := Ideal) (binsV (lumaV x2)) b j = Cert.Hist.imageSum (n := 1) x0 x1 x2 0 b 0 := by
  unfold cntV Cert.Hist.imageSum
  rw [red2_apply]
  refine Finset.sum_congr rfl fun w _ => Finset.sum_congr rfl fun h _ => ?_
  rw [maskV_apply, binsV_apply, lumaV_apply, Cert.Hist.term_zero]

/-- Bin `b`'s sum of the first input's luma is the image's share of statistic 1. -/
theorem sumV_apply_one (x0 x1 x2 : Vec Ideal S1x3x512x512 .f32) (b : BitVec 32) (j : S1x1.Idx) :
    sumV (binsV (lumaV x2)) (lumaV x0) b j = Cert.Hist.imageSum (n := 1) x0 x1 x2 1 b 0 := by
  unfold sumV Cert.Hist.imageSum
  rw [red2_apply]
  refine Finset.sum_congr rfl fun w _ => Finset.sum_congr rfl fun h _ => ?_
  rw [mulf_apply, maskV_apply, binsV_apply, lumaV_apply, lumaV_apply, Cert.Hist.term_one]

/-- Bin `b`'s sum of the second input's luma is the image's share of statistic 2. -/
theorem sumV_apply_two (x0 x1 x2 : Vec Ideal S1x3x512x512 .f32) (b : BitVec 32) (j : S1x1.Idx) :
    sumV (binsV (lumaV x2)) (lumaV x1) b j = Cert.Hist.imageSum (n := 1) x0 x1 x2 2 b 0 := by
  unfold sumV Cert.Hist.imageSum
  rw [red2_apply]
  refine Finset.sum_congr rfl fun w _ => Finset.sum_congr rfl fun h _ => ?_
  rw [mulf_apply, maskV_apply, binsV_apply, lumaV_apply, lumaV_apply, Cert.Hist.term_two]

/-- Sixteen 1 × 1 pieces laid along axis 1, read at column `k`: piece `k`. -/
theorem row16_apply {α : Type} (f : Fin 16 → (S1x1.Idx → α)) (k : Fin 16) :
    concatenate S1x16 1 [⟨S1x1, f 0⟩, ⟨S1x1, f 1⟩, ⟨S1x1, f 2⟩, ⟨S1x1, f 3⟩, ⟨S1x1, f 4⟩, ⟨S1x1, f 5⟩, ⟨S1x1, f 6⟩, ⟨S1x1, f 7⟩,
      ⟨S1x1, f 8⟩, ⟨S1x1, f 9⟩, ⟨S1x1, f 10⟩, ⟨S1x1, f 11⟩, ⟨S1x1, f 12⟩, ⟨S1x1, f 13⟩, ⟨S1x1, f 14⟩, ⟨S1x1, f 15⟩]
      concatenates_S1x1_S1x1_S1x1_S1x1_S1x1_S1x1_S1x1_S1x1_S1x1_S1x1_S1x1_S1x1_S1x1_S1x1_S1x1_S1x1_S1x16_d1 (ix2 0 k)
      = f k (ix2 0 0) :=
  concatenate_ofFn_unit_apply (t := S1x16) (s₁ := S1x1) 1 f
    concatenates_S1x1_S1x1_S1x1_S1x1_S1x1_S1x1_S1x1_S1x1_S1x1_S1x1_S1x1_S1x1_S1x1_S1x1_S1x1_S1x1_S1x16_d1 rfl rfl (ix2 0 k) k rfl (ix2 0 0)
    (fun b => match b with
      | ⟨0, _⟩ => fun _ => rfl
      | ⟨1, _⟩ => fun hb => absurd rfl hb)

/-- Three 1 × 16 pieces laid along axis 0, read at row `r`: piece `r`. -/
theorem rows3_apply {α : Type} (f : Fin 3 → (S1x16.Idx → α)) (r : Fin 3) (k : Fin 16) :
    concatenate S3x16 0 [⟨S1x16, f 0⟩, ⟨S1x16, f 1⟩, ⟨S1x16, f 2⟩] concatenates_S1x16_S1x16_S1x16_S3x16_d0 (ix2 r k)
      = f r (ix2 0 k) :=
  concatenate_ofFn_unit_apply (t := S3x16) (s₁ := S1x16) 0 f concatenates_S1x16_S1x16_S1x16_S3x16_d0 rfl rfl (ix2 r k) r rfl (ix2 0 k)
    (fun b => match b with
      | ⟨0, _⟩ => fun hb => absurd rfl hb
      | ⟨1, _⟩ => fun _ => rfl)

theorem cntRow_apply (bins : IVec S512x512 32) (k : Fin 16) :
    cntRow (F := Ideal) bins (ix2 0 k) = cntV bins (BitVec.ofNat 32 k.val) (ix2 0 0) := by
  unfold cntRow
  exact row16_apply (fun n : Fin 16 => cntV (F := Ideal) bins (BitVec.ofNat 32 n.val)) k

theorem sumRow_apply (bins : IVec S512x512 32) (l : FVec Ideal S512x512 .f32) (k : Fin 16) :
    sumRow bins l (ix2 0 k) = sumV bins l (BitVec.ofNat 32 k.val) (ix2 0 0) := by
  unfold sumRow
  exact row16_apply (fun n : Fin 16 => sumV bins l (BitVec.ofNat 32 n.val)) k

/-- The block of one image's statistics at row `r`, bin `k`. -/
theorem updV_apply (x0 x1 x2 : Vec Ideal S1x3x512x512 .f32) (r : Fin 3) (k : Fin 16) :
    updV x0 x1 x2 (ix2 r k) = Cert.Hist.imageSum (n := 1) x0 x1 x2 r (BitVec.ofNat 32 k.val) 0 := by
  unfold updV
  refine (rows3_apply ![cntRow (F := Ideal) (binsV (lumaV x2)), sumRow (binsV (lumaV x2)) (lumaV x0), sumRow (binsV (lumaV x2)) (lumaV x1)] r k).trans ?_
  match r with
  | ⟨0, _⟩ =>
    show cntRow (F := Ideal) (binsV (lumaV x2)) (ix2 0 k) = _
    rw [cntRow_apply]; exact cntV_apply x0 x1 x2 _ _
  | ⟨1, _⟩ =>
    show sumRow (binsV (lumaV x2)) (lumaV x0) (ix2 0 k) = _
    rw [sumRow_apply]; exact sumV_apply_one x0 x1 x2 _ _
  | ⟨2, _⟩ =>
    show sumRow (binsV (lumaV x2)) (lumaV x1) (ix2 0 k) = _
    rw [sumRow_apply]; exact sumV_apply_two x0 x1 x2 _ _

/-- The update at row `r`, bin `k`: the old entry plus the image's share of statistic `r` for bin `k`. -/
theorem stepV_apply (xo : Vec Ideal S1x3x16 .f32) (x0 x1 x2 : Vec Ideal S1x3x512x512 .f32) (r : Fin 3) (k : Fin 16) :
    stepV xo x0 x1 x2 (ix3 0 r k) = xo (ix3 0 r k) + Cert.Hist.imageSum (n := 1) x0 x1 x2 r (BitVec.ofNat 32 k.val) 0 := by
  unfold stepV
  refine (shapeCast_apply _ _ (ix3 (0 : Fin 1) r k) (ix2 r k) ?_).trans ?_
  · rw [Shape.rowMajor_val_two, Shape.rowMajor_val_three]
    show r.val * 16 + k.val = ((0 : Nat) * 3 + r.val) * 16 + k.val
    omega
  rw [addf_apply, updV_apply]
  refine congrArg (· + _) (shapeCast_apply _ _ (ix2 r k) (ix3 (0 : Fin 1) r k) ?_)
  rw [Shape.rowMajor_val_two, Shape.rowMajor_val_three]
  show ((0 : Nat) * 3 + r.val) * 16 + k.val = r.val * 16 + k.val
  omega

/-! ## The two cases, read at an index -/

/-- A core's first step leaves the image's share of each statistic. -/
theorem out0_A_3_apply (c : Dev nD) (i : grid0.Coords) (arg2 : Memref sig .tc .vmem S1x3x512x512 .f32) (harg2 : arg2.IsWhole) (arg3 : Memref sig .tc .vmem S1x3x512x512 .f32) (harg3 : arg3.IsWhole) (arg4 : Memref sig .tc .vmem S1x3x512x512 .f32) (harg4 : arg4.IsWhole) (arg5 : Memref sig .tc .vmem S1x3x16 .f32) (harg5 : arg5.IsWhole) (hc0 : cond0_0 i)
    (x0 : Vec Ideal S1x3x512x512 .f32) (x1 : Vec Ideal S1x3x512x512 .f32) (x2 : Vec Ideal S1x3x512x512 .f32) (r : Fin 3) (k : Fin 16) :
    out0_A_3 (F := Ideal) c i arg2 harg2 arg3 harg3 arg4 harg4 arg5 harg5 hc0 x0 x1 x2 (ix3 0 r k)
      = Cert.Hist.imageSum (n := 1) x0 x1 x2 r (BitVec.ofNat 32 k.val) 0 := by
  rw [out0_A_3_eq, stepV_apply]
  show Ideal.ofBits .f32 0x00000000#32 + _ = _
  rw [Ideal.ofBits_zero_f32, zero_add]

/-- Every other step adds the image's share of each statistic to what the step before left. -/
theorem out0_B_3_apply (c : Dev nD) (i : grid0.Coords) (arg2 : Memref sig .tc .vmem S1x3x512x512 .f32) (harg2 : arg2.IsWhole) (arg3 : Memref sig .tc .vmem S1x3x512x512 .f32) (harg3 : arg3.IsWhole) (arg4 : Memref sig .tc .vmem S1x3x512x512 .f32) (harg4 : arg4.IsWhole) (arg5 : Memref sig .tc .vmem S1x3x16 .f32) (harg5 : arg5.IsWhole) (hc0 : ¬cond0_0 i)
    (x0 : Vec Ideal S1x3x512x512 .f32) (x1 : Vec Ideal S1x3x512x512 .f32) (x2 : Vec Ideal S1x3x512x512 .f32) (xo3 : Vec Ideal S1x3x16 .f32) (r : Fin 3) (k : Fin 16) :
    out0_B_3 (F := Ideal) c i arg2 harg2 arg3 harg3 arg4 harg4 arg5 harg5 hc0 x0 x1 x2 xo3 (ix3 0 r k)
      = xo3 (ix3 0 r k) + Cert.Hist.imageSum (n := 1) x0 x1 x2 r (BitVec.ofNat 32 k.val) 0 := by
  rw [out0_B_3_eq, stepV_apply]

end Cert.KernelIdeal.Hist

end
-- ==== Proof.lean ====
/-
  The histogram kernel against its segment-sum reference.

  Three arrays of 16 images of 3 channels of 512 × 512 reals.  Per bin `k` of the third array's luma, the kernel counts
  the pixels of the bin and sums the first and second arrays' lumas over them by multiplying with the indicator of the
  bin and summing every pixel (per image: rows first, then columns; per core: eight images accumulated from zero; the
  two cores added on the host), while the reference scatters each pixel's value onto its bin's segment.  On the
  extended reals both are the sum over all pixels of indicator × value — `0·x = 0`, `1·x = x`, addition commutative
  and associative —, and the same scalar tail is applied to the three 16-vectors.  The modules: Spec (the statistic
  and the tail), RefStats (the reference's three segment sums are the statistic), KStep (one run of the kernel body),
  KBlock, KAcc, KArray, KRows, KTail (the accumulation over the grid, the result array, the host lines after the
  region), Assemble (the five claims).
-/
import proofs.«118964_j16312285790284_2_alg».proof.Proof.Assemble
import proofs.«118964_j16312285790284_2_alg».proof.Proof.KStep

noncomputable section

namespace Cert.Proof

theorem claim : Cert.Claim :=
  Cert.Proof.Hist.claim_of Cert.KernelIdeal.Hist.out0_A_3_apply Cert.KernelIdeal.Hist.out0_B_3_apply

end Cert.Proof

end
